-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S32x2048x512 : Shape := ⟨3, ![32, 2048, 512]⟩
abbrev S512x512 : Shape := ⟨2, ![512, 512]⟩
abbrev S512x1024 : Shape := ⟨2, ![512, 1024]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  bcast_S_S32x2048x512 : S_.BroadcastsInDim S32x2048x512 (![] : Fin 0 → Fin S32x2048x512.rank)
  reducesTo_S32x2048x512_S_d0_1_2 : S32x2048x512.ReducesTo [0, 1, 2] S_
  bcast_S_S512x512 : S_.BroadcastsInDim S512x512 (![] : Fin 0 → Fin S512x512.rank)
  reducesTo_S512x512_S_d0_1 : S512x512.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn_part1 {F : FTy → Type} [FloatOps F] (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  main_v18

def fn {F : FTy → Type} [FloatOps F] (main_arg0 : FVec F S32x512x512 .f32) (main_arg1 : FVec F S32x2048x512 .f32) (main_arg2 : FVec F S512x512 .f32) (main_arg3 : FVec F S512x1024 .f32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S32x2048x512 .f32 := Host.absf main_arg1
  let main_cst_0 : FVec F S_ .f32 := constant S_ .f32 0x7F800000#32
  let main_v5 : FVec F S32x2048x512 .f32 := broadcastInDim S32x2048x512 ![] bcast_S_S32x2048x512 main_cst_0
  let main_v6 : IVec S32x2048x512 1 := cmpf .olt main_v4 main_v5
  let main_c_1 : IVec S_ 1 := constantI S_ 1 1#1
  let main_v7 : IVec S_ 1 := (fun x v => Host.reduce IntOp.andi x v reducesTo_S32x2048x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_v13 main_v16
-- ==== Kernel.lean ====
abbrev S32x512x512 : Shape := ⟨3, ![32, 512, 512]⟩
abbrev S32x2048x512 : Shape := ⟨3, ![32, 2048, 512]⟩
abbrev S512x512 : Shape := ⟨2, ![512, 512]⟩
abbrev S512x1024 : Shape := ⟨2, ![512, 1024]⟩
abbrev S32x512x2048 : Shape := ⟨3, ![32, 512, 2048]⟩
abbrev S1x256x512 : Shape := ⟨3, ![1, 256, 512]⟩
abbrev S1x2048x512 : Shape := ⟨3, ![1, 2048, 512]⟩
abbrev S1x256x2048 : Shape := ⟨3, ![1, 256, 2048]⟩
abbrev S2048x512 : Shape := ⟨2, ![2048, 512]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S32x512x512, .f32⟩
  | .hbm, ⟨1, _⟩ => ⟨S32x2048x512, .f32⟩
  | .hbm, ⟨2, _⟩ => ⟨S512x512, .f32⟩
  | .hbm, ⟨3, _⟩ => ⟨S512x1024, .f32⟩
  | .hbm, ⟨4, _⟩ => ⟨S512x512, .bf16⟩
  | .hbm, ⟨5, _⟩ => ⟨S512x1024, .bf16⟩
  | .hbm, ⟨6, _⟩ => ⟨S32x512x512, .f32⟩
  | .hbm, ⟨7, _⟩ => ⟨S32x512x2048, .f32⟩
  | .local _ .vmem, ⟨0, _⟩ => ⟨S1x256x512, .f32⟩
  | .local _ .vmem, ⟨1, _⟩ => ⟨S1x256x512, .f32⟩
  | .local _ .vmem, ⟨2, _⟩ => ⟨S1x2048x512, .f32⟩
  | .local _ .vmem, ⟨3, _⟩ => ⟨S1x2048x512, .f32⟩
  | .local _ .vmem, ⟨4, _⟩ => ⟨S512x512, .bf16⟩
  | .local _ .vmem, ⟨5, _⟩ => ⟨S512x1024, .bf16⟩
  | .local _ .vmem, ⟨6, _⟩ => ⟨S1x256x512, .f32⟩
  | .local _ .vmem, ⟨7, _⟩ => ⟨S1x256x512, .f32⟩
  | .local _ .vmem, ⟨8, _⟩ => ⟨S1x256x2048, .f32⟩
  | .local _ .vmem, ⟨9, _⟩ => ⟨S1x256x2048, .f32⟩
  | .local _ .vmem, ⟨10, _⟩ => ⟨S2048x512, .bf16⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S512x1024_S512x512_0_0 : ∀ a, (![0, 0] : Fin 2 → Nat) a + S512x512.size a ≤ S512x1024.size a
  inb_S512x1024_S512x512_0_512 : ∀ a, (![0, 512] : Fin 2 → Nat) a + S512x512.size a ≤ S512x1024.size a
  shapeCasts_S256x512_S1x256x512 : S256x512.ShapeCasts S1x256x512
  dot_S256x512_S512x512_S256x512_1_1_0_0_n_n_wf : DotDims.WF S256x512 S512x512 S256x512 [1] [1] [0] [0] [] []
  dot_S256x512_S2048x512_S256x2048_1_1_0_0_n_n_wf : DotDims.WF S256x512 S2048x512 S256x2048 [1] [1] [0] [0] [] []
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S32x512x512.size a
  hwx0_0 : ∀ i : grid0.Coords, EltTy.bits .f32 = 32 ∨ (Rect.block (s := S32x512x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S32x2048x512.size a
  hwx0_1 : ∀ i : grid0.Coords, EltTy.bits .f32 = 32 ∨ (Rect.block (s := S32x2048x512) S1x2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x512.size a ≤ S32x512x512.size a
  hwx0_4 : ∀ i : grid0.Coords, EltTy.bits .f32 = 32 ∨ (Rect.block (s := S32x512x512) S1x256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S32x512x2048.size a
  hwx0_5 : ∀ i : grid0.Coords, EltTy.bits .f32 = 32 ∨ (Rect.block (s := S32x512x2048) S1x256x2048.size (cc0_transform_5 i) (hinb0_5 i)).WholeWords (EltTy.packing .f32)

variable [Facts₀]

def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf
def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x256x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512x512 : Shape := ⟨3, ![32, 512, 512]⟩
abbrev S32x2048x512 : Shape := ⟨3, ![32, 2048, 512]⟩
abbrev S512x512 : Shape := ⟨2, ![512, 512]⟩
abbrev S512x1024 : Shape := ⟨2, ![512, 1024]⟩
abbrev S32x512x2048 : Shape := ⟨3, ![32, 512, 2048]⟩
abbrev S_ : Shape := ⟨0, ![]⟩
abbrev S32x512 : Shape := ⟨2, ![32, 512]⟩
abbrev S32x512x1 : Shape := ⟨3, ![32, 512, 1]⟩
abbrev S32x512x1024 : Shape := ⟨3, ![32, 512, 1024]⟩

abbrev nBuf : Space → Nat
  | .hbm => 24
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S32x2048x512, .f32⟩
  | .hbm, ⟨2, _⟩ => ⟨S512x512, .f32⟩
  | .hbm, ⟨3, _⟩ => ⟨S512x1024, .f32⟩
  | .hbm, ⟨4, _⟩ => ⟨S32x512x512, .f32⟩
  | .hbm, ⟨5, _⟩ => ⟨S32x512x2048, .f32⟩
  | .hbm, ⟨6, _⟩ => ⟨S_, .f32⟩
  | .hbm, ⟨7, _⟩ => ⟨S32x512, .f32⟩
  | .hbm, ⟨8, _⟩ => ⟨S_, .f32⟩
  | .hbm, ⟨9, _⟩ => ⟨S32x512, .f32⟩
  | .hbm, ⟨10, _⟩ => ⟨S32x512, .f32⟩
  | .hbm, ⟨11, _⟩ => ⟨S32x512x1, .f32⟩
  | .hbm, ⟨12, _⟩ => ⟨S32x512x2048, .f32⟩
  | .hbm, ⟨13, _⟩ => ⟨S32x512x2048, .f32⟩
  | .hbm, ⟨14, _⟩ => ⟨S32x512x2048, .f32⟩
  | .hbm, ⟨15, _⟩ => ⟨S_, .f32⟩
  | .hbm, ⟨16, _⟩ => ⟨S32x512, .f32⟩
  | .hbm, ⟨17, _⟩ => ⟨S32x512x1, .f32⟩
  | .hbm, ⟨18, _⟩ => ⟨S32x512x2048, .f32⟩
  | .hbm, ⟨19, _⟩ => ⟨S32x512x2048, .f32⟩
  | .hbm, ⟨20, _⟩ => ⟨S32x512x512, .f32⟩
  | .hbm, ⟨21, _⟩ => ⟨S32x512x1024, .f32⟩
  | .hbm, ⟨22, _⟩ => ⟨S32x512x512, .f32⟩
  | .hbm, ⟨23, _⟩ => ⟨S32x512x512, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  reducesTo_S32x512x2048_S32x512_d2 : S32x512x2048.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x2048_0_1_2 : S32x512x1.BroadcastsInDim S32x512x2048 (![0, 1, 2] : Fin 3 → Fin S32x512x2048.rank)
  concatenates_S32x512x512_S32x512x512_S32x512x1024_d2 : Shape.Concatenates [S32x512x512, S32x512x512] S32x512x1024 2
  dot_S32x512x512_S512x512_S32x512x512_2_1_01_0_n_n_wf : DotDims.WF S32x512x512 S512x512 S32x512x512 [2] [1] [0, 1] [0] [] []
  dot_S32x512x512_S32x2048x512_S32x512x2048_2_2_1_1_0_0_wf : DotDims.WF S32x512x512 S32x2048x512 S32x512x2048 [2] [2] [1] [1] [0] [0]
  dot_S32x512x2048_S32x2048x512_S32x512x512_2_1_1_2_0_0_wf : DotDims.WF S32x512x2048 S32x2048x512 S32x512x512 [2] [1] [1] [2] [0] [0]
  dot_S32x512x1024_S512x1024_S32x512x512_2_1_01_0_n_n_wf : DotDims.WF S32x512x1024 S512x1024 S32x512x512 [2] [1] [0, 1] [0] [] []

variable [Facts₀]

def dot_S32x512x512_S512x512_S32x512x512_2_1_01_0_n_n : DotDims S32x512x512 S512x512 S32x512x512 where
  lhsContracting := [2]
  rhsContracting := [1]
  lhsNonContracting := [0, 1]
  rhsNonContracting := [0]
  lhsBatch := []
  rhsBatch := []
  wf := dot_S32x512x512_S512x512_S32x512x512_2_1_01_0_n_n_wf
def dot_S32x512x512_S32x2048x512_S32x512x2048_2_2_1_1_0_0 : DotDims S32x512x512 S32x2048x512 S32x512x2048 where
  lhsContracting := [2]
  rhsContracting := [2]
  lhsNonContracting := [1]
  rhsNonContracting := [1]
  lhsBatch := [0]
  rhsBatch := [0]
  wf := dot_S32x512x512_S32x2048x512_S32x512x2048_2_2_1_1_0_0_wf
def dot_S32x512x2048_S32x2048x512_S32x512x512_2_1_1_2_0_0 : DotDims S32x512x2048 S32x2048x512 S32x512x512 where
  lhsContracting := [2]
  rhsContracting := [1]
  lhsNonContracting := [1]
  rhsNonContracting := [2]
  lhsBatch := [0]
  rhsBatch := [0]
  wf := dot_S32x512x2048_S32x2048x512_S32x512x512_2_1_1_2_0_0_wf
def dot_S32x512x1024_S512x1024_S32x512x512_2_1_01_0_n_n : DotDims S32x512x1024 S512x1024 S32x512x512 where
  lhsContracting := [2]
  rhsContracting := [1]
  lhsNonContracting := [0, 1]
  rhsNonContracting := [0]
  lhsBatch := []
  rhsBatch := []
  wf := dot_S32x512x1024_S512x1024_S32x512x512_2_1_01_0_n_n_wf

class Facts : Prop extends Facts₀ where

variable [Facts]
-- ==== Proof.Spec.lean ====
/-
  The attention block as mathematics on the extended reals, row by row.

  For one batch element `b` and one query position `t`, with `a` the input row `input[b, t, ·]`, `w` the input
  projection, `src` the source states `source_hids[b, ·, ·]` and `W` the output projection:
    x e     = Σ_d a d · w e d                         (the projected query)
    sc s    = Σ_e x e · src s e                       (the scores against every source position)
    p s     = exp (sc s − max_k sc k) / Σ_k exp (sc k − max_j sc j)      (the softmax over source positions)
    mix e   = Σ_s p s · src s e                       (the attended context)
    out o   = tanh (Σ_e mix e · W o e + Σ_d a d · W o (512 + d))         (the output projection of [mix, a])
  The two result arrays are `p` and `out` at every (b, t). Every sum is a finite sum in the additive commutative
  monoid of the extended reals, so no finiteness of the inputs is needed to regroup one.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The projected query row: `x e = Σ_d a d · w e d`. -/
def proj (a : Fin 512 → EReal) (w : Fin 512 → Fin 512 → EReal) (e : Fin 512) : EReal :=
  ∑ d : Fin 512, a d * w e d

/-- The score of a query row against source position `s`: `Σ_e x e · src s e`. -/
def score (x : Fin 512 → EReal) (src : Fin 2048 → Fin 512 → EReal) (s : Fin 2048) : EReal :=
  ∑ e : Fin 512, x e * src s e

/-- The value both programs start a row maximum from: the f32 pattern of −∞. -/
def negInf : EReal := Ideal.ofBits .f32 0xFF800000#32

/-- The maximum of a row of scores, folded from −∞. -/
def rowMax (sc : Fin 2048 → EReal) : EReal :=
  (Finset.univ : Finset (Fin 2048)).fold max negInf sc

/-- The shifted exponential `exp (sc s − max sc)`. -/
def expd (sc : Fin 2048 → EReal) (s : Fin 2048) : EReal := Ideal.exp (sc s - rowMax sc)

/-- The softmax of a row of scores at position `s`. -/
def soft (sc : Fin 2048 → EReal) (s : Fin 2048) : EReal :=
  Ideal.div (expd sc s) (∑ k : Fin 2048, expd sc k)

/-- The attended context: `mix e = Σ_s p s · src s e`. -/
def mix (p : Fin 2048 → EReal) (src : Fin 2048 → Fin 512 → EReal) (e : Fin 512) : EReal :=
  ∑ s : Fin 2048, p s * src s e

/-- The output row: `tanh` of the context against the first 512 columns of the output projection plus the input row
    against the last 512. -/
def outRow (mx a : Fin 512 → EReal) (wm wi : Fin 512 → Fin 512 → EReal) (o : Fin 512) : EReal :=
  Ideal.tanh ((∑ e : Fin 512, mx e * wm o e) + ∑ d : Fin 512, a d * wi o d)

/-- The attention weights of query row `a` against the source states `src`. -/
def attnRow (a : Fin 512 → EReal) (w : Fin 512 → Fin 512 → EReal) (src : Fin 2048 → Fin 512 → EReal) : Fin 2048 → EReal :=
  soft (score (proj a w) src)

/-- The block's output row for query row `a`. -/
def blockRow (a : Fin 512 → EReal) (w : Fin 512 → Fin 512 → EReal) (src : Fin 2048 → Fin 512 → EReal)
    (wm wi : Fin 512 → Fin 512 → EReal) : Fin 512 → EReal :=
  outRow (mix (attnRow a w src) src) a wm wi

/-! ## The two result arrays as functions of the four argument arrays -/

/-- Row `(b, t)` of the input. -/
def inRow (x0 : (⟨3, ![32, 512, 512]⟩ : Shape).Idx → EReal) (b : Fin 32) (t : Fin 512) : Fin 512 → EReal :=
  fun d => x0 (ix3 b t d)

/-- The source states of batch element `b`. -/
def srcOf (x1 : (⟨3, ![32, 2048, 512]⟩ : Shape).Idx → EReal) (b : Fin 32) : Fin 2048 → Fin 512 → EReal :=
  fun s e => x1 (ix3 b s e)

/-- A 512 × 512 matrix by its entries. -/
def mat (x2 : (⟨2, ![512, 512]⟩ : Shape).Idx → EReal) : Fin 512 → Fin 512 → EReal :=
  fun e d => x2 (ix2 e d)

/-- The first 512 columns of the output projection. -/
def woutLo (x3 : (⟨2, ![512, 1024]⟩ : Shape).Idx → EReal) : Fin 512 → Fin 512 → EReal :=
  fun o e => x3 (ix2 o (⟨e.val, by have := e.isLt; omega⟩ : Fin 1024))

/-- Its last 512 columns. -/
def woutHi (x3 : (⟨2, ![512, 1024]⟩ : Shape).Idx → EReal) : Fin 512 → Fin 512 → EReal :=
  fun o d => x3 (ix2 o (⟨512 + d.val, by have := d.isLt; omega⟩ : Fin 1024))

/-- The attention weights, the second result: entry `(b, t, s)`. -/
def attnAt (x0 : (⟨3, ![32, 512, 512]⟩ : Shape).Idx → EReal) (x1 : (⟨3, ![32, 2048, 512]⟩ : Shape).Idx → EReal)
    (x2 : (⟨2, ![512, 512]⟩ : Shape).Idx → EReal) (b : Fin 32) (t : Fin 512) (s : Fin 2048) : EReal :=
  attnRow (inRow x0 b t) (mat x2) (srcOf x1 b) s

/-- The block's output, the first result: entry `(b, t, o)`. -/
def outAt (x0 : (⟨3, ![32, 512, 512]⟩ : Shape).Idx → EReal) (x1 : (⟨3, ![32, 2048, 512]⟩ : Shape).Idx → EReal)
    (x2 : (⟨2, ![512, 512]⟩ : Shape).Idx → EReal) (x3 : (⟨2, ![512, 1024]⟩ : Shape).Idx → EReal)
    (b : Fin 32) (t : Fin 512) (o : Fin 512) : EReal :=
  blockRow (inRow x0 b t) (mat x2) (srcOf x1 b) (woutLo x3) (woutHi x3) o

/-- The whole array of attention weights. -/
def attnArr (x0 : (⟨3, ![32, 512, 512]⟩ : Shape).Idx → EReal) (x1 : (⟨3, ![32, 2048, 512]⟩ : Shape).Idx → EReal)
    (x2 : (⟨2, ![512, 512]⟩ : Shape).Idx → EReal) : (⟨3, ![32, 512, 2048]⟩ : Shape).Idx → EReal :=
  fun i => attnAt x0 x1 x2 (i 0) (i 1) (i 2)

/-- The whole output array. -/
def outArr (x0 : (⟨3, ![32, 512, 512]⟩ : Shape).Idx → EReal) (x1 : (⟨3, ![32, 2048, 512]⟩ : Shape).Idx → EReal)
    (x2 : (⟨2, ![512, 512]⟩ : Shape).Idx → EReal) (x3 : (⟨2, ![512, 1024]⟩ : Shape).Idx → EReal) :
    (⟨3, ![32, 512, 512]⟩ : Shape).Idx → EReal :=
  fun i => outAt x0 x1 x2 x3 (i 0) (i 1) (i 2)

end Cert.Attn

end
-- ==== Proof.RefRows.lean ====
/-
  The reference program of the attention block, read stage by stage at explicit coordinates, is the row
  mathematics of the specification:
    stage 0   the projected query            x e   = Σ_d a d · w e d
    stage 1   the scores                     sc s  = Σ_e x e · src s e
    stages 2, 4  the row maximum folded from −∞ (taking the maximum with −∞ once more changes nothing)
    stages 7, 8  the shifted exponentials    exp (sc s − max sc)
    stage 9   their sum (the initial value is the real zero)
    stage 12  the softmax
    stage 13  the attended context           mix e = Σ_s p s · src s e
    stages 14, 15  the product of the row [mix, a] of 1024 entries with the output projection, which splits at
              column 512 into Σ_e mix e · W o e + Σ_d a d · W o (512 + d)
    stage 16  its hyperbolic tangent.
  Every sum is a finite sum in the additive commutative monoid of the extended reals, so splitting one needs no
  finiteness of the inputs.
-/
import proofs.«157428_j30631706755292_2_alg».proof.Proof.Gen.ReferenceIdeal.Read
import proofs.«157428_j30631706755292_2_alg».proof.Proof.Spec
import Idealize.ShloMosaic.PureOps.Reduce
import Idealize.ShloMosaic.PureOps.Ideal
import Idealize.ShloMosaic.PureOps.Ideal.Laws
import Idealize.ShloMosaic.Lib.Pipeline.Value
import Idealize.ShloMosaic.Lib.ValueIdx

noncomputable section

namespace Cert.Attn.Ref

open Cert.ReferenceIdeal Cert.ReferenceIdeal.Gen Cert.ReferenceIdeal.Read Cert.Attn
open Idealize.ShloMosaic Idealize.ShloMosaic.ValueIdx Idealize.ShloMosaic.TcCoe Idealize.SL.Sem Idealize.ShloMosaic.StableHlo

variable (x0 : (⟨3, ![32, 512, 512]⟩ : Shape).Idx → EReal) (x1 : (⟨3, ![32, 2048, 512]⟩ : Shape).Idx → EReal)
  (x2 : (⟨2, ![512, 512]⟩ : Shape).Idx → EReal) (x3 : (⟨2, ![512, 1024]⟩ : Shape).Idx → EReal)

/-- The scores of query row (b, t) against every source position of batch element b. -/
abbrev scRow (b : Fin 32) (t : Fin 512) : Fin 2048 → EReal :=
  score (proj (inRow x0 b t) (mat x2)) (srcOf x1 b)

/-- Stage 0 at (b, t, e): the projected query. -/
theorem v0_at (b : Fin 32) (t : Fin 512) (e : Fin 512) :
    val_main_v0 (F := Ideal) x0 x2 (ix3 b t e) = proj (inRow x0 b t) (mat x2) e := by
  rw [val_main_v0_apply]
  unfold proj
  refine Finset.sum_congr rfl fun k _ => ?_
  have el : lidx_main_v0 (ix3 b t e) k = ix3 b t k :=
    funext fun a => Fin.ext (by match a with | ⟨0, _⟩ => rfl | ⟨1, _⟩ => rfl | ⟨2, _⟩ => rfl)
  have er : ridx_main_v0 (ix3 b t e) k = ix2 e k :=
    funext fun a => Fin.ext (by match a with | ⟨0, _⟩ => rfl | ⟨1, _⟩ => rfl)
  rw [el, er]
  rfl

/-- Stage 1 at (b, t, s): the score against source position s. -/
theorem v1_at (b : Fin 32) (t : Fin 512) (s : Fin 2048) :
    val_main_v1 (F := Ideal) x0 x1 x2 (ix3 b t s) = scRow x0 x1 x2 b t s := by
  rw [val_main_v1_apply]
  unfold scRow score
  refine Finset.sum_congr rfl fun k _ => ?_
  have el : lidx_main_v1 (ix3 b t s) k = ix3 b t k :=
    funext fun a => Fin.ext (by match a with | ⟨0, _⟩ => rfl | ⟨1, _⟩ => rfl | ⟨2, _⟩ => rfl)
  have er : ridx_main_v1 (ix3 b t s) k = ix3 b s k :=
    funext fun a => Fin.ext (by match a with | ⟨0, _⟩ => rfl | ⟨1, _⟩ => rfl | ⟨2, _⟩ => rfl)
  rw [el, er, v0_at]
  rfl

/-- The reduced index (b, t) with source position k put back on the last axis is (b, t, k). -/
theorem lift_ix3 (h : S32x512x2048.Reduces [2] S32x512) (b : Fin 32) (t : Fin 512) (k : Fin (S32x512x2048.size 2)) :
    h.lift (ix2 b t) k = ix3 b t (⟨k.val, k.isLt⟩ : Fin 2048) := by
  funext c; apply Fin.ext
  fin_cases c <;> rfl

/-- Stage 2 at (b, t): the maximum of the score row, folded from −∞. -/
theorem v2_at (b : Fin 32) (t : Fin 512) :
    val_main_v2 (F := Ideal) x0 x1 x2 (ix2 b t) = rowMax (scRow x0 x1 x2 b t) := by
  unfold val_main_v2
  have h : S32x512x2048.Reduces [2] S32x512 := by decide
  rw [Host.reduce_eq_fold_single FloatOps.maximumf _ _ reducesTo_S32x512x2048_S32x512_d2 h h_S_]
  unfold rowMax negInf
  have hf : (val_main_v1 (F := Ideal) x0 x1 x2 ∘ h.lift (ix2 b t)) = fun k : Fin 2048 => scRow x0 x1 x2 b t k :=
    funext fun k => by
      show val_main_v1 (F := Ideal) x0 x1 x2 (h.lift (ix2 b t) k) = _
      rw [lift_ix3 h b t k]
      exact v1_at x0 x1 x2 b t _
  exact congrArg (fun f => Finset.fold max (Ideal.ofBits .f32 0xFF800000#32) f (Finset.univ : Finset (Fin 2048))) hf

/-- The maximum with −∞ is the other argument. -/
theorem max_negInf (y : EReal) : max (Ideal.ofBits .f32 0xFF800000#32) y = y := by
  show max (Ideal.ofBits .f32 0xFF800000#32) y = y
  simp [Ideal.ofBits, Ideal.ieee]

/-- Stage 4 at (b, t): the row maximum again. -/
theorem v4_at (b : Fin 32) (t : Fin 512) :
    val_main_v4 (F := Ideal) x0 x1 x2 (ix2 b t) = rowMax (scRow x0 x1 x2 b t) := by
  rw [val_main_v4_apply, val_main_v3_apply, val_main_cst_0_apply, v2_at]
  exact max_negInf _

/-- Stage 6 at (b, t, s): the row maximum, the same at every source position. -/
theorem v6_at (b : Fin 32) (t : Fin 512) (s : Fin 2048) :
    val_main_v6 (F := Ideal) x0 x1 x2 (ix3 b t s) = rowMax (scRow x0 x1 x2 b t) := by
  rw [val_main_v6_apply, val_main_v5_apply]
  have e : idx_main_v5 (idx_main_v6 (ix3 b t s)) = ix2 b t :=
    funext fun a => Fin.ext (by match a with | ⟨0, _⟩ => rfl | ⟨1, _⟩ => rfl)
  rw [e, v4_at]

/-- Stage 8 at (b, t, s): the shifted exponential. -/
theorem v8_at (b : Fin 32) (t : Fin 512) (s : Fin 2048) :
    val_main_v8 (F := Ideal) x0 x1 x2 (ix3 b t s) = expd (scRow x0 x1 x2 b t) s := by
  rw [val_main_v8_apply, val_main_v7_apply, v1_at, v6_at]
  rfl

/-- Stage 9 at (b, t): the sum of the shifted exponentials. -/
theorem v9_at (b : Fin 32) (t : Fin 512) :
    val_main_v9 (F := Ideal) x0 x1 x2 (ix2 b t) = ∑ k : Fin 2048, expd (scRow x0 x1 x2 b t) k := by
  rw [val_main_v9_apply, val_main_cst_1_apply]
  show Ideal.ofBits .f32 0x00000000#32 + _ = _
  rw [Ideal.ofBits_zero_f32, zero_add]
  refine Finset.sum_congr rfl fun k _ => ?_
  have e : idx_main_v9 (ix2 b t) k = ix3 b t k :=
    funext fun a => Fin.ext (by match a with | ⟨0, _⟩ => rfl | ⟨1, _⟩ => rfl | ⟨2, _⟩ => rfl)
  rw [e, v8_at]

/-- Stage 11 at (b, t, s): that sum, the same at every source position. -/
theorem v11_at (b : Fin 32) (t : Fin 512) (s : Fin 2048) :
    val_main_v11 (F := Ideal) x0 x1 x2 (ix3 b t s) = ∑ k : Fin 2048, expd (scRow x0 x1 x2 b t) k := by
  rw [val_main_v11_apply, val_main_v10_apply]
  have e : idx_main_v10 (idx_main_v11 (ix3 b t s)) = ix2 b t :=
    funext fun a => Fin.ext (by match a with | ⟨0, _⟩ => rfl | ⟨1, _⟩ => rfl)
  rw [e, v9_at]

/-- Stage 12 at (b, t, s): the softmax weight. -/
theorem v12_at (b : Fin 32) (t : Fin 512) (s : Fin 2048) :
    val_main_v12 (F := Ideal) x0 x1 x2 (ix3 b t s) = attnAt x0 x1 x2 b t s := by
  rw [val_main_v12_apply, v8_at, v11_at]
  rfl

/-- The second result of the reference is the array of attention weights. -/
theorem ref_attn_arr : val_main_v12 (F := Ideal) x0 x1 x2 = attnArr x0 x1 x2 := by
  funext i
  rw [eq_ix3 i]
  exact v12_at x0 x1 x2 (i 0) (i 1) (i 2)

/-- Stage 13 at (b, t, e): the attended context. -/
theorem v13_at (b : Fin 32) (t : Fin 512) (e : Fin 512) :
    val_main_v13 (F := Ideal) x0 x1 x2 (ix3 b t e)
      = mix (attnRow (inRow x0 b t) (mat x2) (srcOf x1 b)) (srcOf x1 b) e := by
  rw [val_main_v13_apply]
  unfold mix
  refine Finset.sum_congr rfl fun k _ => ?_
  have el : lidx_main_v13 (ix3 b t e) k = ix3 b t k :=
    funext fun a => Fin.ext (by match a with | ⟨0, _⟩ => rfl | ⟨1, _⟩ => rfl | ⟨2, _⟩ => rfl)
  have er : ridx_main_v13 (ix3 b t e) k = ix3 b k e :=
    funext fun a => Fin.ext (by match a with | ⟨0, _⟩ => rfl | ⟨1, _⟩ => rfl | ⟨2, _⟩ => rfl)
  rw [el, er, v12_at]
  rfl

/-- Stage 14 at a column below 512: the attended context there. -/
theorem v14_lo (b : Fin 32) (t : Fin 512) (e : Fin 512) :
    val_main_v14 (F := Ideal) x0 x1 x2 (ix3 b t (⟨e.val, by have := e.isLt; omega⟩ : Fin 1024))
      = val_main_v13 (F := Ideal) x0 x1 x2 (ix3 b t e) := by
  unfold val_main_v14
  exact concatenate_pair_apply_left (t := S32x512x1024) (s₁ := S32x512x512) (s₂ := S32x512x512) 2 _ _ _
    (ix3 b t (⟨e.val, by have := e.isLt; omega⟩ : Fin 1024)) rfl (ix3 b t e)
    (fun a => by match a with | ⟨0, _⟩ => rfl | ⟨1, _⟩ => rfl | ⟨2, _⟩ => rfl)

/-- Stage 14 at column 512 + d: the input row at d. -/
theorem v14_hi (b : Fin 32) (t : Fin 512) (d : Fin 512) :
    val_main_v14 (F := Ideal) x0 x1 x2 (ix3 b t (⟨512 + d.val, by have := d.isLt; omega⟩ : Fin 1024))
      = x0 (ix3 b t d) := by
  unfold val_main_v14
  exact concatenate_pair_apply_right (t := S32x512x1024) (s₁ := S32x512x512) (s₂ := S32x512x512) 2 _ _ _
    (ix3 b t (⟨512 + d.val, by have := d.isLt; omega⟩ : Fin 1024)) rfl rfl (ix3 b t d)
    (fun a ha => by
      match a, ha with
      | ⟨0, _⟩, _ => rfl
      | ⟨1, _⟩, _ => rfl
      | ⟨2, _⟩, ha => exact absurd rfl ha)
    (by show d.val + 512 = 512 + d.val; omega)

/-- A sum over 1024 columns is the sum over the first 512 plus the sum over the last 512. -/
theorem sum_split (f : Fin 1024 → EReal) :
    ∑ k : Fin 1024, f k
      = (∑ e : Fin 512, f (⟨e.val, by have := e.isLt; omega⟩ : Fin 1024))
        + ∑ d : Fin 512, f (⟨512 + d.val, by have := d.isLt; omega⟩ : Fin 1024) := by
  show ∑ k : Fin (512 + 512), f k = _
  rw [Fin.sum_univ_add]
  rfl

/-- Stage 15 at (b, t, o): the context against the first 512 columns of the output projection plus the input row
    against the last 512. -/
theorem v15_at (b : Fin 32) (t : Fin 512) (o : Fin 512) :
    val_main_v15 (F := Ideal) x0 x1 x2 x3 (ix3 b t o)
      = (∑ e : Fin 512, mix (attnRow (inRow x0 b t) (mat x2) (srcOf x1 b)) (srcOf x1 b) e * woutLo x3 o e)
        + ∑ d : Fin 512, inRow x0 b t d * woutHi x3 o d := by
  rw [val_main_v15_apply]
  refine (sum_split _).trans ?_
  refine congrArg₂ (· + ·) (Finset.sum_congr rfl fun e _ => ?_) (Finset.sum_congr rfl fun d _ => ?_)
  · have el : lidx_main_v15 (ix3 b t o) (⟨e.val, by have := e.isLt; omega⟩ : Fin 1024)
        = ix3 b t (⟨e.val, by have := e.isLt; omega⟩ : Fin 1024) :=
      funext fun a => Fin.ext (by match a with | ⟨0, _⟩ => rfl | ⟨1, _⟩ => rfl | ⟨2, _⟩ => rfl)
    have er : ridx_main_v15 (ix3 b t o) (⟨e.val, by have := e.isLt; omega⟩ : Fin 1024)
        = ix2 o (⟨e.val, by have := e.isLt; omega⟩ : Fin 1024) :=
      funext fun a => Fin.ext (by match a with | ⟨0, _⟩ => rfl | ⟨1, _⟩ => rfl)
    show val_main_v14 (F := Ideal) x0 x1 x2 (lidx_main_v15 (ix3 b t o) (⟨e.val, by have := e.isLt; omega⟩ : Fin 1024))
        * x3 (ridx_main_v15 (ix3 b t o) (⟨e.val, by have := e.isLt; omega⟩ : Fin 1024)) = _
    rw [el, er, v14_lo, v13_at]
    rfl
  · have el : lidx_main_v15 (ix3 b t o) (⟨512 + d.val, by have := d.isLt; omega⟩ : Fin 1024)
        = ix3 b t (⟨512 + d.val, by have := d.isLt; omega⟩ : Fin 1024) :=
      funext fun a => Fin.ext (by match a with | ⟨0, _⟩ => rfl | ⟨1, _⟩ => rfl | ⟨2, _⟩ => rfl)
    have er : ridx_main_v15 (ix3 b t o) (⟨512 + d.val, by have := d.isLt; omega⟩ : Fin 1024)
        = ix2 o (⟨512 + d.val, by have := d.isLt; omega⟩ : Fin 1024) :=
      funext fun a => Fin.ext (by match a with | ⟨0, _⟩ => rfl | ⟨1, _⟩ => rfl)
    show val_main_v14 (F := Ideal) x0 x1 x2 (lidx_main_v15 (ix3 b t o) (⟨512 + d.val, by have := d.isLt; omega⟩ : Fin 1024))
        * x3 (ridx_main_v15 (ix3 b t o) (⟨512 + d.val, by have := d.isLt; omega⟩ : Fin 1024)) = _
    rw [el, er, v14_hi]
    rfl

/-- Stage 16 at (b, t, o): the block's output. -/
theorem v16_at (b : Fin 32) (t : Fin 512) (o : Fin 512) :
    val_main_v16 (F := Ideal) x0 x1 x2 x3 (ix3 b t o) = outAt x0 x1 x2 x3 b t o := by
  rw [val_main_v16_apply, v15_at]
  rfl

/-- The first result of the reference is the block's output array. -/
theorem ref_out_arr : val_main_v16 (F := Ideal) x0 x1 x2 x3 = outArr x0 x1 x2 x3 := by
  funext i
  rw [eq_ix3 i]
  exact v16_at x0 x1 x2 x3 (i 0) (i 1) (i 2)

end Cert.Attn.Ref

end
-- ==== Proof.Pieces.lean ====
/-
  The kernel body's stores, read back as values: for each of its two control cases (the first query tile of a batch
  element, which also casts and keeps the source states, and the second, which reuses them) what the case leaves in
  the output block, in the attention block and in the carried buffer, as the body's pure payloads of the blocks it loaded.
-/
import proofs.«157428_j30631706755292_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem Idealize.ShloMosaic.Tactic
namespace Cert.KernelIdeal.Pieces
open Cert.KernelIdeal Cert.KernelIdeal.Gen
variable {F : FTy → Type} [FloatOps F]

/-! ## What each control case leaves in the two output blocks and in the carried copy of the source states

  The body stores each output block once, whole, so what a case leaves in a block is that store's payload of the
  blocks it loaded. At the first query tile of a batch element the body first stores the source block's cast into
  the carried buffer and then reads it back; at the second tile it reads what the first left there. -/

theorem hz3 : (![0, 0, 0] : Fin 3 → Nat) = fun _ => 0 := funext fun a => by fin_cases a <;> rfl
theorem hz2 : (![0, 0] : Fin 2 → Nat) = fun _ => 0 := funext fun a => by fin_cases a <;> rfl

/-- The first 512 columns of the staged output projection, as the body loads them. -/
abbrev loCols (x3 : Vec F S512x1024 .bf16) : Vec F S512x512 .bf16 :=
  View.ld x3 (Rect.unit ![0, 0] ![512, 512] inb_S512x1024_S512x512_0_0)

/-- Its last 512 columns. -/
abbrev hiCols (x3 : Vec F S512x1024 .bf16) : Vec F S512x512 .bf16 :=
  View.ld x3 (Rect.unit ![0, 512] ![512, 512] inb_S512x1024_S512x512_0_512)

/-- Second tile: the attention block is the softmax payload of the input block, the input projection and the
    carried source states. -/
theorem out_B_5 (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S1x256x512 .f32) (harg6 : arg6.IsWhole) (arg7 : Memref sig .tc .vmem S1x256x2048 .f32) (harg7 : arg7.IsWhole) (arg8 : Memref sig .tc .vmem S2048x512 .bf16) (harg8 : arg8.IsWhole) (hc0 : ¬cond0_0 i) (x0 : Vec F S1x256x512 .f32) (x1 : Vec F S1x2048x512 .f32) (x2 : Vec F S512x512 .bf16) (x3 : Vec F S512x1024 .bf16) (xs0 : Vec F S2048x512 .bf16) :
    out0_B_5 c i arg2 harg2 arg3 harg3 arg4 harg4 arg5 harg5 arg6 harg6 arg7 harg7 arg8 harg8 hc0 x0 x1 x2 x3 xs0 = k0_pay5 x0 x2 xs0 := by
  unfold out0_B_5
  rw [View.read_writes_eq_canon _ _ _ (cover0_B_5 c i arg2 harg2 arg3 harg3 arg4 harg4 arg5 harg5 arg6 harg6 arg7 harg7 arg8 harg8 hc0 x0 x1 x2 x3 xs0)]
  unfold kernelRun0_B
  dsimp only
  rw [View.canon_unit_zero hz3]
  simp only [View.readAt_eq_ld, harg2.read_unread, harg4.read_unread, harg8.read_unread,
    View.ld_unit_zero (S := S1x256x512) hz3, View.ld_unit_zero (S := S512x512) hz2, View.ld_unit_zero (S := S2048x512) hz2]

/-- Second tile: the output block is the output payload over the same carried source states. -/
theorem out_B_4 (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S1x256x512 .f32) (harg6 : arg6.IsWhole) (arg7 : Memref sig .tc .vmem S1x256x2048 .f32) (harg7 : arg7.IsWhole) (arg8 : Memref sig .tc .vmem S2048x512 .bf16) (harg8 : arg8.IsWhole) (hc0 : ¬cond0_0 i) (x0 : Vec F S1x256x512 .f32) (x1 : Vec F S1x2048x512 .f32) (x2 : Vec F S512x512 .bf16) (x3 : Vec F S512x1024 .bf16) (xs0 : Vec F S2048x512 .bf16) :
    out0_B_4 c i arg2 harg2 arg3 harg3 arg4 harg4 arg5 harg5 arg6 harg6 arg7 harg7 arg8 harg8 hc0 x0 x1 x2 x3 xs0 = k0_pay1 (k0_pay6 x0 x2 xs0 (loCols x3)) (k0_pay7 x0 (hiCols x3)) := by
  unfold out0_B_4
  rw [View.read_writes_eq_canon _ _ _ (cover0_B_4 c i arg2 harg2 arg3 harg3 arg4 harg4 arg5 harg5 arg6 harg6 arg7 harg7 arg8 harg8 hc0 x0 x1 x2 x3 xs0)]
  unfold kernelRun0_B
  dsimp only
  sl_unfold_words
  rw [View.canon_unit_zero hz3]
  simp only [View.readAt_eq_ld, harg2.read_unread, harg4.read_unread, harg5.read_unread, harg8.read_unread,
    View.ld_unit_zero (S := S1x256x512) hz3, View.ld_unit_zero (S := S512x512) hz2, View.ld_unit_zero (S := S2048x512) hz2]

/-- First tile: the carried buffer is left holding the cast of the source block. -/
theorem sout_A_0 (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S1x256x512 .f32) (harg6 : arg6.IsWhole) (arg7 : Memref sig .tc .vmem S1x256x2048 .f32) (harg7 : arg7.IsWhole) (arg8 : Memref sig .tc .vmem S2048x512 .bf16) (harg8 : arg8.IsWhole) (hc0 : cond0_0 i) (x0 : Vec F S1x256x512 .f32) (x1 : Vec F S1x2048x512 .f32) (x2 : Vec F S512x512 .bf16) (x3 : Vec F S512x1024 .bf16) :
    sout0_A_0 c i arg2 harg2 arg3 harg3 arg4 harg4 arg5 harg5 arg6 harg6 arg7 harg7 arg8 harg8 hc0 x0 x1 x2 x3 = k0_pay2 x1 := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg3.read_unread, View.ld_unit_zero (S := S1x2048x512) hz3]

/-- First tile: the attention block is the softmax payload over the cast just stored. -/
theorem out_A_5 (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S1x256x512 .f32) (harg6 : arg6.IsWhole) (arg7 : Memref sig .tc .vmem S1x256x2048 .f32) (harg7 : arg7.IsWhole) (arg8 : Memref sig .tc .vmem S2048x512 .bf16) (harg8 : arg8.IsWhole) (hc0 : cond0_0 i) (x0 : Vec F S1x256x512 .f32) (x1 : Vec F S1x2048x512 .f32) (x2 : Vec F S512x512 .bf16) (x3 : Vec F S512x1024 .bf16) :
    out0_A_5 c i arg2 harg2 arg3 harg3 arg4 harg4 arg5 harg5 arg6 harg6 arg7 harg7 arg8 harg8 hc0 x0 x1 x2 x3 = k0_pay5 x0 x2 (k0_pay2 x1) := by
  unfold out0_A_5
  rw [View.read_writes_eq_canon _ _ _ (cover0_A_5 c i arg2 harg2 arg3 harg3 arg4 harg4 arg5 harg5 arg6 harg6 arg7 harg7 arg8 harg8 hc0 x0 x1 x2 x3)]
  unfold kernelRun0_A
  dsimp only
  sl_unfold_words
  rw [View.canon_unit_zero hz3, View.readCov_unit_zero (S := S2048x512) _ hz2]
  simp only [View.readAt_eq_ld, harg2.read_unread, harg3.read_unread, harg4.read_unread,
    View.ld_unit_zero (S := S1x256x512) hz3, View.ld_unit_zero (S := S512x512) hz2, View.ld_unit_zero (S := S1x2048x512) hz3]

/-- First tile: the output block likewise. -/
theorem out_A_4 (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S1x256x512 .f32) (harg6 : arg6.IsWhole) (arg7 : Memref sig .tc .vmem S1x256x2048 .f32) (harg7 : arg7.IsWhole) (arg8 : Memref sig .tc .vmem S2048x512 .bf16) (harg8 : arg8.IsWhole) (hc0 : cond0_0 i) (x0 : Vec F S1x256x512 .f32) (x1 : Vec F S1x2048x512 .f32) (x2 : Vec F S512x512 .bf16) (x3 : Vec F S512x1024 .bf16) :
    out0_A_4 c i arg2 harg2 arg3 harg3 arg4 harg4 arg5 harg5 arg6 harg6 arg7 harg7 arg8 harg8 hc0 x0 x1 x2 x3 = k0_pay1 (k0_pay6 x0 x2 (k0_pay2 x1) (loCols x3)) (k0_pay7 x0 (hiCols x3)) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz3, View.readCov_unit_zero (S := S2048x512) _ hz2]
  simp only [View.readAt_eq_ld, harg2.read_unread, harg3.read_unread, harg4.read_unread, harg5.read_unread,
    View.ld_unit_zero (S := S1x256x512) hz3, View.ld_unit_zero (S := S512x512) hz2, View.ld_unit_zero (S := S1x2048x512) hz3]

end Cert.KernelIdeal.Pieces
end
-- ==== Proof.BlockReads.lean ====
/-
  Where the kernel's blocks sit in the arrays. Grid point `t` of the 32 × 2 grid is batch element `t / 2`, query tile
  `t % 2`: its input block is rows `256 (t % 2) … 256 (t % 2) + 255` of `input[t / 2]`, its source block is all of
  `source_hids[t / 2]`, the two weight blocks are the whole (cast) weight arrays, and its two output blocks sit where
  the input block does. The weight arrays the region finds are the casts of the arguments made before it.
-/
import proofs.«157428_j30631706755292_2_alg».proof.Proof.Gen.KernelIdeal.Frame
import Idealize.ShloMosaic.Lib.Pipeline.Value
import Idealize.ShloMosaic.Lib.Tactic
import proofs.«157428_j30631706755292_2_alg».proof.Proof.Gen.KernelIdeal.Value
import Idealize.ShloMosaic.Lib.ValueIdx
import Idealize.ShloMosaic.Lib.StableHlo.Run
set_option maxRecDepth 16384

noncomputable section
open Idealize.ShloMosaic Idealize.ShloMosaic.TcCoe Idealize.SL.Sem Idealize.ShloMosaic.Tactic
namespace Cert.KernelIdeal.BlockReads
open Cert.KernelIdeal Cert.KernelIdeal.Gen
variable {F : FTy → Type} [FloatOps F]

open Idealize.ShloMosaic.ValueIdx
variable (m : (ℓ : Loc nD τ sig) → Buf (Elt F) ℓ)

/-- The block indices of the six windows at every grid point, decided over the 64 points. -/
theorem idx_facts : ∀ t : Fin cfg0.N,
    (win0_0.index t (0 : Fin 3) = t.val / 2 ∧ win0_0.index t (1 : Fin 3) = t.val % 2 ∧ win0_0.index t (2 : Fin 3) = 0)
    ∧ (win0_1.index t (0 : Fin 3) = t.val / 2 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val / 2 ∧ win0_4.index t (1 : Fin 3) = t.val % 2 ∧ win0_4.index t (2 : Fin 3) = 0)
    ∧ (win0_5.index t (0 : Fin 3) = t.val / 2 ∧ win0_5.index t (1 : Fin 3) = t.val % 2 ∧ win0_5.index t (2 : Fin 3) = 0) :=
  (by decide +kernel : ∀ t : Fin grid0.N, _)

theorem N64 : cfg0.N = 64 := N_0

/-- The batch element of a grid point. -/
def bOf (t : Fin cfg0.N) : Fin 32 := ⟨t.val / 2, by have h := lt_of_lt_of_eq t.isLt N64; omega⟩

/-- Global row `256 (t % 2) + r` of the query axis: row `r` of the point's tile. -/
def rowOf (t : Fin cfg0.N) (r : Fin 256) : Fin 512 := ⟨256 * (t.val % 2) + r.val, by have := r.isLt; omega⟩

/-- The input block at a point, entry by entry. -/
theorem iblk0_at (c : Dev nD) (t : Fin cfg0.N) (r : Fin 256) (d : Fin 512) :
    (iblk m c 0 t : Vec F S1x256x512 .f32) (ix3 0 r d) = V m c main_arg0 (ix3 (bOf t) (rowOf t r) d) := by
  obtain ⟨⟨e0, e1, e2⟩, -⟩ := idx_facts t
  unfold iblk
  rw [View.read_apply]
  show V m c main_arg0 _ = V m c main_arg0 _
  congr 1
  funext a; apply Fin.ext
  match a with
  | ⟨0, _⟩ => show win0_0.index t (0 : Fin 3) * 1 + 1 * 0 = t.val / 2; omega
  | ⟨1, _⟩ => show win0_0.index t (1 : Fin 3) * 256 + 1 * r.val = 256 * (t.val % 2) + r.val; omega
  | ⟨2, _⟩ => show win0_0.index t (2 : Fin 3) * 512 + 1 * d.val = d.val; omega

/-- The source block at a point, entry by entry. -/
theorem iblk1_at (c : Dev nD) (t : Fin cfg0.N) (s : Fin 2048) (e : Fin 512) :
    (iblk m c 1 t : Vec F S1x2048x512 .f32) (ix3 0 s e) = V m c main_arg1 (ix3 (bOf t) s e) := by
  obtain ⟨-, ⟨e0, e1, e2⟩, -⟩ := idx_facts t
  unfold iblk
  rw [View.read_apply]
  show V m c main_arg1 _ = V m c main_arg1 _
  congr 1
  funext a; apply Fin.ext
  match a with
  | ⟨0, _⟩ => show win0_1.index t (0 : Fin 3) * 1 + 1 * 0 = t.val / 2; omega
  | ⟨1, _⟩ => show win0_1.index t (1 : Fin 3) * 2048 + 1 * s.val = s.val; omega
  | ⟨2, _⟩ => show win0_1.index t (2 : Fin 3) * 512 + 1 * e.val = e.val; omega

/-- The input projection's block is the whole cast array. -/
theorem iblk2_at (c : Dev nD) (t : Fin cfg0.N) (e d : Fin 512) :
    (iblk m c 2 t : Vec F S512x512 .bf16) (ix2 e d) = V m c main_v0 (ix2 e d) := by
  obtain ⟨-, -, ⟨e0, e1⟩, -⟩ := idx_facts t
  unfold iblk
  rw [View.read_apply]
  show V m c main_v0 _ = V m c main_v0 _
  congr 1
  funext a; apply Fin.ext
  match a with
  | ⟨0, _⟩ => show win0_2.index t (0 : Fin 2) * 512 + 1 * e.val = e.val; omega
  | ⟨1, _⟩ => show win0_2.index t (1 : Fin 2) * 512 + 1 * d.val = d.val; omega

/-- The output projection's block is the whole cast array. -/
theorem iblk3_at (c : Dev nD) (t : Fin cfg0.N) (o : Fin 512) (k : Fin 1024) :
    (iblk m c 3 t : Vec F S512x1024 .bf16) (ix2 o k) = V m c main_v1 (ix2 o k) := by
  obtain ⟨-, -, -, ⟨e0, e1⟩, -⟩ := idx_facts t
  unfold iblk
  rw [View.read_apply]
  show V m c main_v1 _ = V m c main_v1 _
  congr 1
  funext a; apply Fin.ext
  match a with
  | ⟨0, _⟩ => show win0_3.index t (0 : Fin 2) * 512 + 1 * o.val = o.val; omega
  | ⟨1, _⟩ => show win0_3.index t (1 : Fin 2) * 1024 + 1 * k.val = k.val; omega

/-- The array the input projection's window stages is the cast of the argument. -/
theorem V_v0 (c : Dev nD) :
    (V m c main_v0 : S512x512.Idx → Elt F .bf16) = truncf .bf16 (m ((c : Thread nD τ).loc main_arg2)) bitsLt_bf16_f32 := by
  dsimp only [Gen.V, Gen.hostOps0]; after_results

/-- The array the output projection's window stages is the cast of the argument. -/
theorem V_v1 (c : Dev nD) :
    (V m c main_v1 : S512x1024.Idx → Elt F .bf16) = truncf .bf16 (m ((c : Thread nD τ).loc main_arg3)) bitsLt_bf16_f32 := by
  dsimp only [Gen.V, Gen.hostOps0]; after_results

end Cert.KernelIdeal.BlockReads
end
-- ==== Proof.Carried.lean ====
/-
  The carried copy of the source states. After every grid point `t` the buffer the kernel keeps between the two query
  tiles of a batch element holds the source states of batch element `t / 2`: the first tile stores their cast (the
  identity on the extended reals), the second leaves the buffer alone, and both tiles of a batch element read it.
-/
import proofs.«157428_j30631706755292_2_alg».proof.Proof.Gen.KernelIdeal.Frame
import Idealize.ShloMosaic.Lib.Pipeline.Value
import Idealize.ShloMosaic.Lib.Tactic
import proofs.«157428_j30631706755292_2_alg».proof.Proof.Gen.KernelIdeal.Value
import proofs.«157428_j30631706755292_2_alg».proof.Proof.Pieces
import proofs.«157428_j30631706755292_2_alg».proof.Proof.BlockReads
import Idealize.ShloMosaic.Lib.ValueIdx
import Idealize.ShloMosaic.Lib.ValueLayout
set_option maxRecDepth 16384

noncomputable section
open Idealize.ShloMosaic Idealize.ShloMosaic.TcCoe Idealize.SL.Sem Idealize.ShloMosaic.Tactic
namespace Cert.KernelIdeal.Carried
open Cert.KernelIdeal Cert.KernelIdeal.Gen

open Idealize.ShloMosaic.ValueIdx Cert.KernelIdeal.Pieces Cert.KernelIdeal.BlockReads
variable (m : (ℓ : Loc nD τ sig) → Buf (Elt Ideal) ℓ)

/-- The cast of a source block, entry by entry: the block's own entry. -/
theorem pay2_at (x1 : Vec Ideal S1x2048x512 .f32) (s : Fin 2048) (e : Fin 512) :
    k0_pay2 (F := Ideal) x1 (ix2 s e) = x1 (ix3 0 s e) := by
  unfold k0_pay2
  rw [shapeCast_self, truncf_apply]
  exact shapeCast_1ab_ab_apply x1 _ s e

/-- After a first tile the carried buffer holds the source states of the point's batch element. -/
theorem first_tile (c : Dev nD) (t : Fin cfg0.N) (h0 : t.val % 2 = 0) (s : Fin 2048) (e : Fin 512) :
    (outsAt0 m c t.val t.isLt).2.2 (ix2 s e) = V m c main_arg1 (ix3 (bOf t) s e) := by
  rw [outsAt0_A m c t h0]
  dsimp only
  refine (congrFun (sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)) (ix2 s e)).trans ?_
  refine (pay2_at (iblk m c 1 t) s e).trans ?_
  exact iblk1_at m c t s e

/-- After EVERY point the carried buffer holds the source states of the point's batch element: a second tile finds
    what the first left, and both belong to one batch element. -/
theorem carried_at (c : Dev nD) (n : ℕ) : ∀ (h : n < cfg0.N) (s : Fin 2048) (e : Fin 512),
    (outsAt0 m c n h).2.2 (ix2 s e) = V m c main_arg1 (ix3 (bOf ⟨n, h⟩) s e) := by
  induction n with
  | zero => intro h s e; exact first_tile m c ⟨0, h⟩ rfl s e
  | succ n ih =>
    intro h s e
    by_cases h0 : (n + 1) % 2 = 0
    · exact first_tile m c ⟨n + 1, h⟩ h0 s e
    · rw [outsAt0_B m c ⟨n + 1, h⟩ h0]
      show (outsAt0 m c n (Nat.lt_of_succ_lt h)).2.2 (ix2 s e) = _
      rw [ih (Nat.lt_of_succ_lt h) s e]
      have hb : bOf ⟨n, Nat.lt_of_succ_lt h⟩ = bOf ⟨n + 1, h⟩ := Fin.ext (by show n / 2 = (n + 1) / 2; omega)
      rw [hb]

end Cert.KernelIdeal.Carried
end
-- ==== Proof.BodySoft.lean ====
/-
  The kernel body's softmax values read at an index, over the extended reals.

  For a block of 256 query rows `a r = x0[0, r, ·]`, the projection `w`, and the stored source states `src`:
    x r e    = Σ_d a r d · w e d
    sc r s   = Σ_e x r e · src s e
    p r s    = exp (sc r s − max_k sc r k) / Σ_k exp (sc r k − max_j sc r j)
  Each contraction is re-indexed through its one contracting axis; the row maximum is a fold of `max` from −∞ over the
  row, kept as a unit column and broadcast back along the row; the row sum likewise. Rounding to bf16 is the identity
  on extended reals.
-/
import proofs.«157428_j30631706755292_2_alg».proof.Proof.Gen.KernelIdeal.Skeleton
import proofs.«157428_j30631706755292_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.Attn.Body

open Cert.KernelIdeal Cert.KernelIdeal.Gen Idealize.ShloMosaic Idealize.ShloMosaic.ValueIdx

/-! ## The first contraction: `[256, 512] × [512, 512]ᵀ` -/

theorem lhs1_0 (i : S256x512.Idx) (q : dot_S256x512_S512x512_S256x512_1_1_0_0_n_n.contr.Idx) : (dot_S256x512_S512x512_S256x512_1_1_0_0_n_n.lhsIdx i q 0).val = (i 0).val := by
  unfold DotDims.lhsIdx
  rw [dif_neg (show ¬(0 : Fin S256x512.rank) ∈ dot_S256x512_S512x512_S256x512_1_1_0_0_n_n.lhsBatch by decide),
    dif_pos (show (0 : Fin S256x512.rank) ∈ dot_S256x512_S512x512_S256x512_1_1_0_0_n_n.lhsNonContracting by decide)]
  rfl
theorem lhs1_1 (i : S256x512.Idx) (q : dot_S256x512_S512x512_S256x512_1_1_0_0_n_n.contr.Idx) : (dot_S256x512_S512x512_S256x512_1_1_0_0_n_n.lhsIdx i q 1).val = (q ⟨0, by decide⟩).val :=
  dot_S256x512_S512x512_S256x512_1_1_0_0_n_n.lhsIdx_val_of_single rfl i q
theorem rhs1_0 (i : S256x512.Idx) (q : dot_S256x512_S512x512_S256x512_1_1_0_0_n_n.contr.Idx) : (dot_S256x512_S512x512_S256x512_1_1_0_0_n_n.rhsIdx i q 0).val = (i 1).val := by
  unfold DotDims.rhsIdx
  rw [dif_neg (show ¬(0 : Fin S512x512.rank) ∈ dot_S256x512_S512x512_S256x512_1_1_0_0_n_n.rhsBatch by decide),
    dif_pos (show (0 : Fin S512x512.rank) ∈ dot_S256x512_S512x512_S256x512_1_1_0_0_n_n.rhsNonContracting by decide)]
  rfl
theorem rhs1_1 (i : S256x512.Idx) (q : dot_S256x512_S512x512_S256x512_1_1_0_0_n_n.contr.Idx) : (dot_S256x512_S512x512_S256x512_1_1_0_0_n_n.rhsIdx i q 1).val = (q ⟨0, by decide⟩).val :=
  dot_S256x512_S512x512_S256x512_1_1_0_0_n_n.rhsIdx_val_of_single rfl i q

/-- Entry `(r, e)` of `a · wᵀ` is `Σ_d a r d · w e d`. -/
theorem matmul1_apply (a : FVec Ideal S256x512 .bf16) (w : FVec Ideal S512x512 .bf16) (r : Fin 256) (e : Fin 512) :
    matmul dot_S256x512_S512x512_S256x512_1_1_0_0_n_n none a w (constant (F := Ideal) S256x512 .f32 0x00000000#32) (ix2 r e)
      = ∑ d : Fin 512, a (ix2 r d) * w (ix2 e d) := by
  refine (Ideal.matmul_constant_zero_apply dot_S256x512_S512x512_S256x512_1_1_0_0_n_n none a w (ix2 r e)).trans ?_
  rw [← Equiv.sum_comp (contrEquiv1 dot_S256x512_S512x512_S256x512_1_1_0_0_n_n 512 rfl rfl).symm]
  refine Finset.sum_congr rfl fun k _ => ?_
  have hk := contrEquiv1_symm_val dot_S256x512_S512x512_S256x512_1_1_0_0_n_n 512 rfl rfl k
  have el : dot_S256x512_S512x512_S256x512_1_1_0_0_n_n.lhsIdx (ix2 r e) ((contrEquiv1 dot_S256x512_S512x512_S256x512_1_1_0_0_n_n 512 rfl rfl).symm k) = ix2 r k := funext fun c => Fin.ext (by
    match c with
    | ⟨0, _⟩ => exact lhs1_0 _ _
    | ⟨1, _⟩ => exact (lhs1_1 _ _).trans hk)
  have er : dot_S256x512_S512x512_S256x512_1_1_0_0_n_n.rhsIdx (ix2 r e) ((contrEquiv1 dot_S256x512_S512x512_S256x512_1_1_0_0_n_n 512 rfl rfl).symm k) = ix2 e k := funext fun c => Fin.ext (by
    match c with
    | ⟨0, _⟩ => exact rhs1_0 _ _
    | ⟨1, _⟩ => exact (rhs1_1 _ _).trans hk)
  rw [el, er]

/-! ## The second contraction: `[256, 512] × [2048, 512]ᵀ` -/

theorem lhs2_0 (i : S256x2048.Idx) (q : dot_S256x512_S2048x512_S256x2048_1_1_0_0_n_n.contr.Idx) : (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide),
    dif_pos (show (0 : Fin S256x512.rank) ∈ dot_S256x512_S2048x512_S256x2048_1_1_0_0_n_n.lhsNonContracting by decide)]
  rfl
theorem lhs2_1 (i : S256x2048.Idx) (q : dot_S256x512_S2048x512_S256x2048_1_1_0_0_n_n.contr.Idx) : (dot_S256x512_S2048x512_S256x2048_1_1_0_0_n_n.lhsIdx i q 1).val = (q ⟨0, by decide⟩).val :=
  dot_S256x512_S2048x512_S256x2048_1_1_0_0_n_n.lhsIdx_val_of_single rfl i q
theorem rhs2_0 (i : S256x2048.Idx) (q : dot_S256x512_S2048x512_S256x2048_1_1_0_0_n_n.contr.Idx) : (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide),
    dif_pos (show (0 : Fin S2048x512.rank) ∈ dot_S256x512_S2048x512_S256x2048_1_1_0_0_n_n.rhsNonContracting by decide)]
  rfl
theorem rhs2_1 (i : S256x2048.Idx) (q : dot_S256x512_S2048x512_S256x2048_1_1_0_0_n_n.contr.Idx) : (dot_S256x512_S2048x512_S256x2048_1_1_0_0_n_n.rhsIdx i q 1).val = (q ⟨0, by decide⟩).val :=
  dot_S256x512_S2048x512_S256x2048_1_1_0_0_n_n.rhsIdx_val_of_single rfl i q

/-- Entry `(r, s)` of `x · srcᵀ` is `Σ_e x r e · src s e`. -/
theorem matmul2_apply (x : FVec Ideal S256x512 .bf16) (sc : FVec Ideal S2048x512 .bf16) (r : Fin 256) (s : Fin 2048) :
    matmul dot_S256x512_S2048x512_S256x2048_1_1_0_0_n_n none x sc (constant (F := Ideal) S256x2048 .f32 0x00000000#32) (ix2 r s)
      = ∑ e : Fin 512, x (ix2 r e) * sc (ix2 s e) := by
  refine (Ideal.matmul_constant_zero_apply dot_S256x512_S2048x512_S256x2048_1_1_0_0_n_n none x sc (ix2 r s)).trans ?_
  rw [← Equiv.sum_comp (contrEquiv1 dot_S256x512_S2048x512_S256x2048_1_1_0_0_n_n 512 rfl rfl).symm]
  refine Finset.sum_congr rfl fun k _ => ?_
  have hk := contrEquiv1_symm_val dot_S256x512_S2048x512_S256x2048_1_1_0_0_n_n 512 rfl rfl k
  have el : dot_S256x512_S2048x512_S256x2048_1_1_0_0_n_n.lhsIdx (ix2 r s) ((contrEquiv1 dot_S256x512_S2048x512_S256x2048_1_1_0_0_n_n 512 rfl rfl).symm k) = ix2 r k := funext fun c => Fin.ext (by
    match c with
    | ⟨0, _⟩ => exact lhs2_0 _ _
    | ⟨1, _⟩ => exact (lhs2_1 _ _).trans hk)
  have er : dot_S256x512_S2048x512_S256x2048_1_1_0_0_n_n.rhsIdx (ix2 r s) ((contrEquiv1 dot_S256x512_S2048x512_S256x2048_1_1_0_0_n_n 512 rfl rfl).symm k) = ix2 s k := funext fun c => Fin.ext (by
    match c with
    | ⟨0, _⟩ => exact rhs2_0 _ _
    | ⟨1, _⟩ => exact (rhs2_1 _ _).trans hk)
  rw [el, er]

/-! ## Reductions along a row, and a per-row value spread back along the row -/

/-- The index over row `r` with coordinate `k` on the reduced axis is `(r, k)`. -/
theorem lift_row (r : Fin 256) (k : Fin 2048) :
    reduces_S256x2048_S256.lift (ix1 r) k = ix2 r k :=
  funext fun c => Fin.ext (by
    match c with
    | ⟨0, _⟩ => rfl
    | ⟨1, _⟩ => rfl)

/-- The maximum over axis 1, from −∞, at row `r`: the fold of `max` over the row. -/
theorem rowmax_apply (v : FVec Ideal S256x2048 .f32) (r : Fin 256) :
    multiReduction (F := Ideal) .maximumf [1] S256 v 0xFF800000#32 reduces_S256x2048_S256 (.inl rfl) rfl (ix1 r)
      = Cert.Attn.rowMax (fun k => v (ix2 r k)) := by
  refine (Ideal.multiReduction_maximumf_single v _ reduces_S256x2048_S256 _ _ (ix1 r)).trans ?_
  have e : (v ∘ reduces_S256x2048_S256.lift (ix1 r)) = fun k : Fin 2048 => v (ix2 r k) :=
    funext fun k => congrArg v (lift_row r k)
  exact congrArg (fun f : Fin 2048 → EReal => (Finset.univ : Finset (Fin 2048)).fold max Cert.Attn.negInf f) e

/-- The sum over axis 1, from 0, at row `r`: the sum over the row. -/
theorem rowsum_apply (v : FVec Ideal S256x2048 .f32) (r : Fin 256) :
    multiReduction (F := Ideal) .add [1] S256 v 0x00000000#32 reduces_S256x2048_S256 (.inl rfl) rfl (ix1 r)
      = ∑ k : Fin 2048, v (ix2 r k) := by
  refine (Ideal.multiReduction_add_single v _ reduces_S256x2048_S256 _ _ (ix1 r)).trans ?_
  exact Finset.sum_congr rfl fun k _ => congrArg v (lift_row r k)

/-- A per-row value kept as a unit column and broadcast along the row reads, at `(r, s)`, the value of row `r`. -/
theorem keep_apply (u : FVec Ideal S256 .f32) (r : Fin 256) (s : Fin 2048) :
    broadcastTo S256x2048 (shapeCast S256x1 u shapeCasts_S256_S256x1) broadcasts_S256x1_S256x2048 (ix2 r s) = u (ix1 r) := by
  refine (broadcastTo_apply _ broadcasts_S256x1_S256x2048 (ix2 r s) (ix2 r (0 : Fin 1)) fun a => ?_).trans ?_
  · match a with
    | ⟨0, _⟩ => rfl
    | ⟨1, _⟩ => rfl
  · exact shapeCast_apply u shapeCasts_S256_S256x1 (ix2 r (0 : Fin 1)) (ix1 r) (by
      rw [Shape.rowMajor_val_one, Shape.rowMajor_val_two]
      show r.val = r.val * 1 + 0
      omega)

/-! ## The softmax of a block of score rows -/

/-- The row maxima spread along the rows. -/
def maxB (v : FVec Ideal S256x2048 .f32) : FVec Ideal S256x2048 .f32 :=
  broadcastTo S256x2048 (shapeCast S256x1
    (multiReduction (F := Ideal) .maximumf [1] S256 v 0xFF800000#32 reduces_S256x2048_S256 (.inl rfl) rfl)
    shapeCasts_S256_S256x1) broadcasts_S256x1_S256x2048

/-- The shifted exponentials. -/
def expV (v : FVec Ideal S256x2048 .f32) : FVec Ideal S256x2048 .f32 := exp (subf v (maxB v))

/-- The row sums of the shifted exponentials spread along the rows. -/
def sumB (v : FVec Ideal S256x2048 .f32) : FVec Ideal S256x2048 .f32 :=
  broadcastTo S256x2048 (shapeCast S256x1
    (multiReduction (F := Ideal) .add [1] S256 (expV v) 0x00000000#32 reduces_S256x2048_S256 (.inl rfl) rfl)
    shapeCasts_S256_S256x1) broadcasts_S256x1_S256x2048

/-- The softmax along each row. -/
def softV (v : FVec Ideal S256x2048 .f32) : FVec Ideal S256x2048 .f32 := divf (expV v) (sumB v)

theorem maxB_apply (v : FVec Ideal S256x2048 .f32) (r : Fin 256) (s : Fin 2048) :
    maxB v (ix2 r s) = Cert.Attn.rowMax (fun k => v (ix2 r k)) :=
  (keep_apply _ r s).trans (rowmax_apply v r)

theorem expV_apply (v : FVec Ideal S256x2048 .f32) (r : Fin 256) (s : Fin 2048) :
    expV v (ix2 r s) = Cert.Attn.expd (fun k => v (ix2 r k)) s := by
  show Ideal.exp (v (ix2 r s) - maxB v (ix2 r s)) = Ideal.exp (v (ix2 r s) - Cert.Attn.rowMax (fun k => v (ix2 r k)))
  rw [maxB_apply]

theorem sumB_apply (v : FVec Ideal S256x2048 .f32) (r : Fin 256) (s : Fin 2048) :
    sumB v (ix2 r s) = ∑ k : Fin 2048, Cert.Attn.expd (fun k => v (ix2 r k)) k := by
  refine ((keep_apply _ r s).trans (rowsum_apply (expV v) r)).trans ?_
  exact Finset.sum_congr rfl fun k _ => expV_apply v r k

theorem softV_apply (v : FVec Ideal S256x2048 .f32) (r : Fin 256) (s : Fin 2048) :
    softV v (ix2 r s) = Cert.Attn.soft (fun k => v (ix2 r k)) s := by
  show Ideal.div (expV v (ix2 r s)) (sumB v (ix2 r s))
    = Ideal.div (Cert.Attn.expd (fun k => v (ix2 r k)) s) (∑ k : Fin 2048, Cert.Attn.expd (fun k => v (ix2 r k)) k)
  rw [expV_apply, sumB_apply]

/-! ## The payloads -/

variable (x0 : Vec Ideal S1x256x512 .f32) (x1 : Vec Ideal S1x2048x512 .f32) (w2 : Vec Ideal S512x512 .bf16)
  (scr : Vec Ideal S2048x512 .bf16) (r : Fin 256) (d e : Fin 512) (s : Fin 2048)

/-- The stored source states are the source block with its unit axis dropped. -/
theorem pay2_apply : k0_pay2 (F := Ideal) x1 (ix2 s e) = x1 (ix3 0 s e) := by
  unfold k0_pay2
  refine (congrFun (shapeCast_self _ shapeCasts_S2048x512_S2048x512) (ix2 s e)).trans ?_
  exact shapeCast_1ab_ab_apply x1 shapeCasts_S1x2048x512_S2048x512 s e

/-- The query rows are the input block with its unit axis dropped. -/
theorem pay3_apply : k0_pay3 (F := Ideal) x0 (ix2 r d) = x0 (ix3 0 r d) := by
  unfold k0_pay3
  exact shapeCast_1ab_ab_apply x0 shapeCasts_S1x256x512_S256x512 r d

/-- The projected queries of the block. -/
def projV : FVec Ideal S256x512 .f32 :=
  matmul dot_S256x512_S512x512_S256x512_1_1_0_0_n_n none (k0_pay3 (F := Ideal) x0) (shapeCast S512x512 w2 shapeCasts_S512x512_S512x512 : FVec Ideal S512x512 .bf16)
    (constant (F := Ideal) S256x512 .f32 0x00000000#32)

/-- The scores of the block's queries against every source position. -/
def scoreV : FVec Ideal S256x2048 .f32 :=
  matmul (φ₂ := .bf16) dot_S256x512_S2048x512_S256x2048_1_1_0_0_n_n none (truncf .bf16 (projV x0 w2) bitsLt_bf16_f32) scr (constant (F := Ideal) S256x2048 .f32 0x00000000#32)

theorem projV_apply :
    projV x0 w2 (ix2 r e) = Cert.Attn.proj (fun d => x0 (ix3 0 r d)) (fun e d => w2 (ix2 e d)) e := by
  unfold projV
  refine (matmul1_apply _ _ r e).trans ?_
  unfold Cert.Attn.proj
  refine Finset.sum_congr rfl fun d _ => ?_
  rw [pay3_apply, shapeCast_self]

theorem scoreV_apply :
    scoreV x0 w2 scr (ix2 r s)
      = Cert.Attn.score (Cert.Attn.proj (fun d => x0 (ix3 0 r d)) (fun e d => w2 (ix2 e d))) (fun s e => scr (ix2 s e)) s := by
  unfold scoreV
  refine (matmul2_apply _ _ r s).trans ?_
  unfold Cert.Attn.score
  refine Finset.sum_congr rfl fun e _ => ?_
  exact congrArg (· * scr (ix2 s e)) (projV_apply x0 w2 r e)

set_option maxRecDepth 65536 in
theorem pay4_eq : k0_pay4 (F := Ideal) x0 w2 scr = softV (scoreV x0 w2 scr) := rfl

/-- The attention weights the body computes, at row `r` and source position `s`. -/
theorem pay4_apply :
    k0_pay4 (F := Ideal) x0 w2 scr (ix2 r s)
      = Cert.Attn.attnRow (fun d => x0 (ix3 0 r d)) (fun e d => w2 (ix2 e d)) (fun s e => scr (ix2 s e)) s := by
  rw [pay4_eq, softV_apply]
  unfold Cert.Attn.attnRow
  exact congrArg (fun f : Fin 2048 → EReal => Cert.Attn.soft f s) (funext fun k => scoreV_apply x0 w2 scr r k)

/-- The same values as stored, under a leading unit axis. -/
theorem pay5_apply :
    k0_pay5 (F := Ideal) x0 w2 scr (ix3 0 r s)
      = Cert.Attn.attnRow (fun d => x0 (ix3 0 r d)) (fun e d => w2 (ix2 e d)) (fun s e => scr (ix2 s e)) s := by
  unfold k0_pay5
  exact (shapeCast_ab_1ab_apply _ shapeCasts_S256x2048_S1x256x2048 (0 : Fin 1) r s).trans (pay4_apply x0 w2 scr r s)

end Cert.Attn.Body

end
-- ==== Proof.BodyOut.lean ====
/-
  The value the kernel body stores as its output block, read at one index (at the ideal values).

  For a row r of the block and an output column o the stored value is
    tanh (Σ_e (Σ_s p(r,s) · src(s,e)) · Wlo(o,e) + Σ_d a(r,d) · Whi(o,d)),
  where p is the body's attention-weight value, src the source block, a the input block and Wlo, Whi the two
  halves of the output projection. Each matrix product into a zero accumulator is read at an index as the
  finite sum over its one contracted axis; the conversions between the two float formats are the identity at the
  ideal values, and the casts between [1,256,512] and [256,512] move an index to the same coordinates.
-/
import proofs.«157428_j30631706755292_2_alg».proof.Proof.Gen.KernelIdeal.Skeleton
import proofs.«157428_j30631706755292_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Attn.BodyO

open Cert.KernelIdeal Cert.KernelIdeal.Gen Idealize.ShloMosaic Idealize.ShloMosaic.ValueIdx

/-! ## The operand indices of the two kinds of matrix product -/

theorem d1_lhs0 (i : S256x512.Idx) (q : dot_S256x512_S512x512_S256x512_1_1_0_0_n_n.contr.Idx) : (dot_S256x512_S512x512_S256x512_1_1_0_0_n_n.lhsIdx i q 0).val = (i 0).val := by
  unfold DotDims.lhsIdx
  rw [dif_neg (show ¬(0 : Fin S256x512.rank) ∈ dot_S256x512_S512x512_S256x512_1_1_0_0_n_n.lhsBatch by decide), dif_pos (show (0 : Fin S256x512.rank) ∈ dot_S256x512_S512x512_S256x512_1_1_0_0_n_n.lhsNonContracting by decide)]
  rfl
theorem d1_lhs1 (i : S256x512.Idx) (q : dot_S256x512_S512x512_S256x512_1_1_0_0_n_n.contr.Idx) : (dot_S256x512_S512x512_S256x512_1_1_0_0_n_n.lhsIdx i q 1).val = (q ⟨0, by decide⟩).val :=
  dot_S256x512_S512x512_S256x512_1_1_0_0_n_n.lhsIdx_val_of_single rfl i q
theorem d1_rhs0 (i : S256x512.Idx) (q : dot_S256x512_S512x512_S256x512_1_1_0_0_n_n.contr.Idx) : (dot_S256x512_S512x512_S256x512_1_1_0_0_n_n.rhsIdx i q 0).val = (i 1).val := by
  unfold DotDims.rhsIdx
  rw [dif_neg (show ¬(0 : Fin S512x512.rank) ∈ dot_S256x512_S512x512_S256x512_1_1_0_0_n_n.rhsBatch by decide), dif_pos (show (0 : Fin S512x512.rank) ∈ dot_S256x512_S512x512_S256x512_1_1_0_0_n_n.rhsNonContracting by decide)]
  rfl
theorem d1_rhs1 (i : S256x512.Idx) (q : dot_S256x512_S512x512_S256x512_1_1_0_0_n_n.contr.Idx) : (dot_S256x512_S512x512_S256x512_1_1_0_0_n_n.rhsIdx i q 1).val = (q ⟨0, by decide⟩).val :=
  dot_S256x512_S512x512_S256x512_1_1_0_0_n_n.rhsIdx_val_of_single rfl i q

theorem d3_lhs0 (i : S256x512.Idx) (q : dot_S256x2048_S2048x512_S256x512_1_0_0_1_n_n.contr.Idx) : (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem d3_lhs1 (i : S256x512.Idx) (q : dot_S256x2048_S2048x512_S256x512_1_0_0_1_n_n.contr.Idx) : (dot_S256x2048_S2048x512_S256x512_1_0_0_1_n_n.lhsIdx i q 1).val = (q ⟨0, by decide⟩).val :=
  dot_S256x2048_S2048x512_S256x512_1_0_0_1_n_n.lhsIdx_val_of_single rfl i q
theorem d3_rhs0 (i : S256x512.Idx) (q : dot_S256x2048_S2048x512_S256x512_1_0_0_1_n_n.contr.Idx) : (dot_S256x2048_S2048x512_S256x512_1_0_0_1_n_n.rhsIdx i q 0).val = (q ⟨0, by decide⟩).val :=
  dot_S256x2048_S2048x512_S256x512_1_0_0_1_n_n.rhsIdx_val_of_single rfl i q
theorem d3_rhs1 (i : S256x512.Idx) (q : dot_S256x2048_S2048x512_S256x512_1_0_0_1_n_n.contr.Idx) : (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

/-! ## A matrix product into the zero accumulator, read at an index -/

/-- Rows against rows: entry (r, o) is Σ_k a(r,k) · b(o,k). -/
theorem mm_rowcol (a : FVec Ideal S256x512 .bf16) (b : FVec Ideal S512x512 .bf16) (r : Fin 256) (o : Fin 512) :
    matmul dot_S256x512_S512x512_S256x512_1_1_0_0_n_n none a b (constant (F := Ideal) S256x512 .f32 0x00000000#32) (ix2 r o)
      = ∑ k : Fin 512, a (ix2 r k) * b (ix2 o k) := by
  refine (Ideal.matmul_constant_zero_apply dot_S256x512_S512x512_S256x512_1_1_0_0_n_n none a b (ix2 r o)).trans ?_
  rw [← Equiv.sum_comp (contrEquiv1 dot_S256x512_S512x512_S256x512_1_1_0_0_n_n 512 rfl rfl).symm]
  refine Finset.sum_congr rfl fun k _ => ?_
  have hk := contrEquiv1_symm_val dot_S256x512_S512x512_S256x512_1_1_0_0_n_n 512 rfl rfl k
  have el : dot_S256x512_S512x512_S256x512_1_1_0_0_n_n.lhsIdx (ix2 r o) ((contrEquiv1 dot_S256x512_S512x512_S256x512_1_1_0_0_n_n 512 rfl rfl).symm k) = ix2 r k := funext fun c => Fin.ext (by
    match c with
    | ⟨0, _⟩ => exact d1_lhs0 _ _
    | ⟨1, _⟩ => exact (d1_lhs1 _ _).trans hk)
  have er : dot_S256x512_S512x512_S256x512_1_1_0_0_n_n.rhsIdx (ix2 r o) ((contrEquiv1 dot_S256x512_S512x512_S256x512_1_1_0_0_n_n 512 rfl rfl).symm k) = ix2 o k := funext fun c => Fin.ext (by
    match c with
    | ⟨0, _⟩ => exact d1_rhs0 _ _
    | ⟨1, _⟩ => exact (d1_rhs1 _ _).trans hk)
  rw [el, er]

/-- Rows against columns: entry (r, e) is Σ_s p(r,s) · v(s,e). -/
theorem mm_mix (p : FVec Ideal S256x2048 .bf16) (v : FVec Ideal S2048x512 .bf16) (r : Fin 256) (e : Fin 512) :
    matmul dot_S256x2048_S2048x512_S256x512_1_0_0_1_n_n none p v (constant (F := Ideal) S256x512 .f32 0x00000000#32) (ix2 r e)
      = ∑ s : Fin 2048, p (ix2 r s) * v (ix2 s e) := by
  refine (Ideal.matmul_constant_zero_apply dot_S256x2048_S2048x512_S256x512_1_0_0_1_n_n none p v (ix2 r e)).trans ?_
  rw [← Equiv.sum_comp (contrEquiv1 dot_S256x2048_S2048x512_S256x512_1_0_0_1_n_n 2048 rfl rfl).symm]
  refine Finset.sum_congr rfl fun k _ => ?_
  have hk := contrEquiv1_symm_val dot_S256x2048_S2048x512_S256x512_1_0_0_1_n_n 2048 rfl rfl k
  have el : dot_S256x2048_S2048x512_S256x512_1_0_0_1_n_n.lhsIdx (ix2 r e) ((contrEquiv1 dot_S256x2048_S2048x512_S256x512_1_0_0_1_n_n 2048 rfl rfl).symm k) = ix2 r k := funext fun c => Fin.ext (by
    match c with
    | ⟨0, _⟩ => exact d3_lhs0 _ _
    | ⟨1, _⟩ => exact (d3_lhs1 _ _).trans hk)
  have er : dot_S256x2048_S2048x512_S256x512_1_0_0_1_n_n.rhsIdx (ix2 r e) ((contrEquiv1 dot_S256x2048_S2048x512_S256x512_1_0_0_1_n_n 2048 rfl rfl).symm k) = ix2 k e := funext fun c => Fin.ext (by
    match c with
    | ⟨0, _⟩ => exact (d3_rhs0 _ _).trans hk
    | ⟨1, _⟩ => exact d3_rhs1 _ _)
  rw [el, er]

/-! ## The body's values at an index -/

attribute [local irreducible] k0_pay4

/-- The input block as a [256,512] array: entry (r, d) is the block's (0, r, d). -/
theorem pay3_apply (x0 : Vec Ideal S1x256x512 .f32) (r : Fin 256) (d : Fin 512) :
    k0_pay3 (F := Ideal) x0 (ix2 r d) = x0 (ix3 0 r d) := by
  unfold k0_pay3
  exact shapeCast_1ab_ab_apply x0 _ r d

/-- The input rows against the second half of the output projection: Σ_d a(r,d) · Whi(o,d). -/
theorem pay7_apply (x0 : Vec Ideal S1x256x512 .f32) (w3b : Vec Ideal S512x512 .bf16) (r : Fin 256) (o : Fin 512) :
    k0_pay7 (F := Ideal) x0 w3b (ix2 r o) = ∑ d : Fin 512, x0 (ix3 0 r d) * w3b (ix2 o d) := by
  unfold k0_pay7
  refine (mm_rowcol (k0_pay3 x0) (shapeCast S512x512 w3b shapeCasts_S512x512_S512x512) r o).trans ?_
  refine Finset.sum_congr rfl fun d _ => ?_
  rw [pay3_apply, shapeCast_self]

/-- The attended context against the first half of the output projection:
    Σ_e (Σ_s p(r,s) · src(s,e)) · Wlo(o,e). -/
theorem pay6_apply (x0 : Vec Ideal S1x256x512 .f32) (w2 : Vec Ideal S512x512 .bf16) (scr : Vec Ideal S2048x512 .bf16)
    (w3a : Vec Ideal S512x512 .bf16) (r : Fin 256) (o : Fin 512) :
    k0_pay6 (F := Ideal) x0 w2 scr w3a (ix2 r o)
      = ∑ e : Fin 512, (∑ s : Fin 2048, k0_pay4 (F := Ideal) x0 w2 scr (ix2 r s) * scr (ix2 s e)) * w3a (ix2 o e) := by
  unfold k0_pay6
  refine (mm_rowcol _ _ r o).trans ?_
  refine Finset.sum_congr rfl fun e _ => ?_
  rw [shapeCast_self, truncf_apply]
  refine congrArg (· * w3a (ix2 o e)) ?_
  refine (mm_mix _ scr r e).trans ?_
  refine Finset.sum_congr rfl fun s _ => ?_
  rw [truncf_apply]

/-- The stored output block at (0, r, o) is the output row of the specification, built from the body's attention
    weights, the source block, the input block and the two halves of the output projection. -/
theorem pay1_apply_of (x0 : Vec Ideal S1x256x512 .f32) (w2 : Vec Ideal S512x512 .bf16) (scr : Vec Ideal S2048x512 .bf16)
    (w3a w3b : Vec Ideal S512x512 .bf16) (r : Fin 256) (o : Fin 512) :
    k0_pay1 (F := Ideal) (k0_pay6 x0 w2 scr w3a) (k0_pay7 x0 w3b) (ix3 0 r o)
      = Cert.Attn.outRow (Cert.Attn.mix (fun s => k0_pay4 (F := Ideal) x0 w2 scr (ix2 r s)) (fun s e => scr (ix2 s e)))
          (fun d => x0 (ix3 0 r d)) (fun o e => w3a (ix2 o e)) (fun o d => w3b (ix2 o d)) o := by
  unfold k0_pay1
  refine (shapeCast_ab_1ab_apply _ _ 0 r o).trans ?_
  show Ideal.tanh (k0_pay6 (F := Ideal) x0 w2 scr w3a (ix2 r o) + k0_pay7 (F := Ideal) x0 w3b (ix2 r o)) = _
  rw [pay6_apply, pay7_apply]
  rfl

end Cert.Attn.BodyO

end
-- ==== Proof.PointRows.lean ====
/-
  One grid point's two stored blocks against the whole-array functions. If the point's input block is rows of
  `input[b]`, its weight blocks are the weight arrays and the carried buffer holds `source_hids[b]`, then row `r` of the
  stored attention block is the attention row of global query position `tr`, and row `r` of the stored output block
  is the block's output row there. Stated over arbitrary block contents with those facts as hypotheses.
-/
import proofs.«157428_j30631706755292_2_alg».proof.Proof.Gen.KernelIdeal.Skeleton
import proofs.«157428_j30631706755292_2_alg».proof.Proof.Spec
import proofs.«157428_j30631706755292_2_alg».proof.Proof.BodySoft
import proofs.«157428_j30631706755292_2_alg».proof.Proof.BodyOut
import proofs.«157428_j30631706755292_2_alg».proof.Proof.Pieces
import Idealize.ShloMosaic.Lib.ValueIdx

noncomputable section
open Idealize.ShloMosaic Idealize.ShloMosaic.ValueIdx
namespace Cert.KernelIdeal.PointRows
open Cert.KernelIdeal Cert.KernelIdeal.Gen Cert.KernelIdeal.Pieces Cert.Attn

/-- The first 512 columns of the staged output projection, entry by entry. -/
theorem loCols_at (x3 : Vec Ideal S512x1024 .bf16) (o e : Fin 512) :
    loCols x3 (ix2 o e) = x3 (ix2 o (⟨e.val, by have := e.isLt; omega⟩ : Fin 1024)) := by
  show x3 _ = x3 _
  congr 1
  funext a; apply Fin.ext
  match a with
  | ⟨0, _⟩ => show 0 + 1 * o.val = o.val; omega
  | ⟨1, _⟩ => show 0 + 1 * e.val = e.val; omega

/-- Its last 512 columns, entry by entry. -/
theorem hiCols_at (x3 : Vec Ideal S512x1024 .bf16) (o d : Fin 512) :
    hiCols x3 (ix2 o d) = x3 (ix2 o (⟨512 + d.val, by have := d.isLt; omega⟩ : Fin 1024)) := by
  show x3 _ = x3 _
  congr 1
  funext a; apply Fin.ext
  match a with
  | ⟨0, _⟩ => show 0 + 1 * o.val = o.val; omega
  | ⟨1, _⟩ => show 512 + 1 * d.val = 512 + d.val; omega

/-- Row `r` of the stored attention block is the attention row of query position `(b, tr)`. -/
theorem attn_point (A0 : (⟨3, ![32, 512, 512]⟩ : Shape).Idx → EReal) (A1 : (⟨3, ![32, 2048, 512]⟩ : Shape).Idx → EReal) (A2 : (⟨2, ![512, 512]⟩ : Shape).Idx → EReal)
    (x0 : Vec Ideal S1x256x512 .f32) (w2 : Vec Ideal S512x512 .bf16) (scr : Vec Ideal S2048x512 .bf16)
    (b : Fin 32) (tr : Fin 512) (r : Fin 256) (s : Fin 2048)
    (h0 : ∀ d, x0 (ix3 0 r d) = A0 (ix3 b tr d)) (h2 : ∀ e d, w2 (ix2 e d) = A2 (ix2 e d))
    (hs : ∀ s e, scr (ix2 s e) = A1 (ix3 b s e)) :
    k0_pay5 (F := Ideal) x0 w2 scr (ix3 0 r s) = attnAt A0 A1 A2 b tr s := by
  refine (Cert.Attn.Body.pay5_apply x0 w2 scr r s).trans ?_
  unfold attnAt
  have e0 : (fun d => x0 (ix3 0 r d)) = inRow A0 b tr := funext h0
  have e2 : (fun e d => w2 (ix2 e d)) = mat A2 := funext fun e => funext fun d => h2 e d
  have e1 : (fun s e => scr (ix2 s e)) = srcOf A1 b := funext fun s => funext fun e => hs s e
  rw [e0, e2, e1]

/-- Row `r` of the stored output block is the block's output row at query position `(b, tr)`. -/
theorem out_point (A0 : (⟨3, ![32, 512, 512]⟩ : Shape).Idx → EReal) (A1 : (⟨3, ![32, 2048, 512]⟩ : Shape).Idx → EReal) (A2 : (⟨2, ![512, 512]⟩ : Shape).Idx → EReal) (A3 : (⟨2, ![512, 1024]⟩ : Shape).Idx → EReal)
    (x0 : Vec Ideal S1x256x512 .f32) (w2 : Vec Ideal S512x512 .bf16) (scr : Vec Ideal S2048x512 .bf16)
    (w3a w3b : Vec Ideal S512x512 .bf16)
    (b : Fin 32) (tr : Fin 512) (r : Fin 256) (o : Fin 512)
    (h0 : ∀ d, x0 (ix3 0 r d) = A0 (ix3 b tr d)) (h2 : ∀ e d, w2 (ix2 e d) = A2 (ix2 e d))
    (hs : ∀ s e, scr (ix2 s e) = A1 (ix3 b s e))
    (ha : ∀ o e, w3a (ix2 o e) = woutLo A3 o e) (hb : ∀ o d, w3b (ix2 o d) = woutHi A3 o d) :
    k0_pay1 (F := Ideal) (k0_pay6 x0 w2 scr w3a) (k0_pay7 x0 w3b) (ix3 0 r o) = outAt A0 A1 A2 A3 b tr o := by
  refine (Cert.Attn.BodyO.pay1_apply_of x0 w2 scr w3a w3b r o).trans ?_
  unfold outAt blockRow
  have e4 : (fun s => k0_pay4 (F := Ideal) x0 w2 scr (ix2 r s))
      = attnRow (fun d => x0 (ix3 0 r d)) (fun e d => w2 (ix2 e d)) (fun s e => scr (ix2 s e)) :=
    funext fun s => Cert.Attn.Body.pay4_apply x0 w2 scr r s
  have e0 : (fun d => x0 (ix3 0 r d)) = inRow A0 b tr := funext h0
  have e2 : (fun e d => w2 (ix2 e d)) = mat A2 := funext fun e => funext fun d => h2 e d
  have e1 : (fun s e => scr (ix2 s e)) = srcOf A1 b := funext fun s => funext fun e => hs s e
  have ea : (fun o e => w3a (ix2 o e)) = woutLo A3 := funext fun o => funext fun e => ha o e
  have eb : (fun o d => w3b (ix2 o d)) = woutHi A3 := funext fun o => funext fun d => hb o d
  rw [e4, e0, e2, e1, ea, eb]

end Cert.KernelIdeal.PointRows
end
-- ==== Proof.Blocks.lean ====
/-
  From blocks to arrays. Every grid point writes back one block of each result; the block of point `t` is rows
  `256 (t % 2) …` of batch element `t / 2`, the 64 blocks tile each result array, and each stored block is the
  whole-array function of the arrays the region finds, read through the block. So after the run each result array
  IS that function of the arrays; and the arrays the region finds are the arguments (the two weight arrays through a
  change of float format, the identity on the extended reals).
-/
import proofs.«157428_j30631706755292_2_alg».proof.Proof.Gen.KernelIdeal.Frame
import Idealize.ShloMosaic.Lib.Pipeline.Value
import Idealize.ShloMosaic.Lib.Tactic
import proofs.«157428_j30631706755292_2_alg».proof.Proof.Gen.KernelIdeal.Value
import proofs.«157428_j30631706755292_2_alg».proof.Proof.Pieces
import proofs.«157428_j30631706755292_2_alg».proof.Proof.BlockReads
import proofs.«157428_j30631706755292_2_alg».proof.Proof.Carried
import proofs.«157428_j30631706755292_2_alg».proof.Proof.PointRows
import proofs.«157428_j30631706755292_2_alg».proof.Proof.Spec
import Idealize.ShloMosaic.Lib.ValueIdx
set_option maxRecDepth 16384

noncomputable section
open Idealize.ShloMosaic Idealize.ShloMosaic.TcCoe Idealize.SL.Sem Idealize.ShloMosaic.Tactic
namespace Cert.KernelIdeal.Blocks
open Cert.KernelIdeal Cert.KernelIdeal.Gen

open Idealize.ShloMosaic.ValueIdx
open Idealize.ShloMosaic.Pipeline (Dat)
open Cert.KernelIdeal.Value Cert.KernelIdeal.Pieces Cert.KernelIdeal.BlockReads Cert.KernelIdeal.Carried Cert.KernelIdeal.PointRows Cert.Attn
variable (m : (ℓ : Loc nD τ sig) → Buf (Elt Ideal) ℓ) (ρ : Dev nD → PrngReg)

/-- WHAT POINT `t` WRITES BACK to result window 5: its block of the whole-array function of the arrays the region finds. -/
theorem flushed5_eq (c : Dev nD) (t : Fin cfg0.N) :
    (dats m 0 c).flushed 5 t = ((cfg0.win 5).blk t).view.read (Elt Ideal) (attnArr (V m c main_arg0) (V m c main_arg1) (V m c main_v0)) := by
  obtain ⟨-, -, -, -, -, ⟨e0, e1, e2⟩⟩ := idx_facts t
  funext y
  have hy0 : (y 0).val = 0 := by have h : (y 0).val < 1 := (y 0).isLt; omega
  let r : Fin 256 := ⟨(y 1).val, (y 1).isLt⟩
  let s : Fin 2048 := ⟨(y 2).val, (y 2).isLt⟩
  have hx : (cfg0.win 5).xinj (grid0.coords t) y = (ix3 0 r s : S1x256x2048.Idx) :=
    funext fun a => Fin.ext (by match a with | ⟨0, _⟩ => exact hy0 | ⟨1, _⟩ => rfl | ⟨2, _⟩ => rfl)
  have hemb : ((cfg0.win 5).blk t).view.emb y = (ix3 (bOf t) (rowOf t r) s : S32x512x2048.Idx) :=
    funext fun a => Fin.ext (by
      match a with
      | ⟨0, _⟩ => show win0_5.index t (0 : Fin 3) * 1 + 1 * (y 0).val = t.val / 2; omega
      | ⟨1, _⟩ => show win0_5.index t (1 : Fin 3) * 256 + 1 * (y 1).val = 256 * (t.val % 2) + (y 1).val; omega
      | ⟨2, _⟩ => show win0_5.index t (2 : Fin 3) * 2048 + 1 * (y 2).val = (y 2).val; omega)
  show (dats m 0 c).flushed 5 t y = attnArr (V m c main_arg0) (V m c main_arg1) (V m c main_v0) (((cfg0.win 5).blk t).view.emb y)
  rw [hemb]
  show _ = attnAt (V m c main_arg0) (V m c main_arg1) (V m c main_v0) (bOf t) (rowOf t r) s
  by_cases h0 : t.val % 2 = 0
  · rw [flushed5_A m c t h0]
    refine (congrArg (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)) hx).trans ?_
    refine (congrFun (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)) (ix3 0 r s)).trans ?_
    exact attn_point (V m c main_arg0) (V m c main_arg1) (V m c main_v0) (iblk m c 0 t) (iblk m c 2 t) (k0_pay2 (iblk m c 1 t)) (bOf t) (rowOf t r) r s (fun d => iblk0_at m c t r d) (fun e d => iblk2_at m c t e d) (fun s e => (pay2_at (iblk m c 1 t) s e).trans (iblk1_at m c t s e))
  · have hb : bOf ⟨t.val - 1, Nat.lt_of_le_of_lt (Nat.sub_le _ _) t.isLt⟩ = bOf t :=
      Fin.ext (by show (t.val - 1) / 2 = t.val / 2; omega)
    rw [flushed5_B m c t h0]
    refine (congrArg (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2) hx).trans ?_
    refine (congrFun (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2) (ix3 0 r s)).trans ?_
    exact attn_point (V m c main_arg0) (V m c main_arg1) (V m c main_v0) (iblk m c 0 t) (iblk m c 2 t) ((outsAt0 m c (t.val - 1) (Nat.lt_of_le_of_lt (Nat.sub_le _ _) t.isLt)).2.2) (bOf t) (rowOf t r) r s (fun d => iblk0_at m c t r d) (fun e d => iblk2_at m c t e d) (fun s e => (carried_at m c (t.val - 1) (Nat.lt_of_le_of_lt (Nat.sub_le _ _) t.isLt) s e).trans (by rw [hb]))

/-- An index of the array is in point `t`'s block iff each coordinate is in the block's range on its axis. -/
theorem mem_blk5 (t : Fin cfg0.N) (i : S32x512x2048.Idx) :
    i ∈ ((cfg0.win 5).blk t).view.set ↔ ∀ a : Fin 3, win0_5.index t a * S1x256x2048.size a ≤ (i a).val ∧ (i a).val < win0_5.index t a * S1x256x2048.size a + S1x256x2048.size a := by
  show i ∈ ((View.whole main_v2_1).slice (win0_5.rect t)).set ↔ _
  rw [View.set_slice_whole, Rect.mem_set_unit]
  exact Iff.rfl

/-- Every entry `(b, q, k)` of the result lies in the block of point `2 b + q / 256`. -/
theorem cover5 (i : S32x512x2048.Idx) :
    ∃ t : Fin cfg0.N, (cfg0.win 5).flush t = true ∧ i ∈ ((cfg0.win 5).blk t).view.set := by
  have h0 : (i 0).val < 32 := (i 0).isLt
  have h1 : (i 1).val < 512 := (i 1).isLt
  have h2 : (i 2).val < 2048 := (i 2).isLt
  have hN : 2 * (i 0).val + (i 1).val / 256 < cfg0.N := by rw [N64]; omega
  obtain ⟨-, -, -, -, -, ⟨e0, e1, e2⟩⟩ := idx_facts ⟨2 * (i 0).val + (i 1).val / 256, hN⟩
  refine ⟨⟨2 * (i 0).val + (i 1).val / 256, hN⟩, flush0_5 _, ?_⟩
  rw [mem_blk5]
  intro a
  match a with
  | ⟨0, _⟩ => show win0_5.index ⟨2 * (i 0).val + (i 1).val / 256, hN⟩ (0 : Fin 3) * 1 ≤ (i 0).val ∧ (i 0).val < win0_5.index ⟨2 * (i 0).val + (i 1).val / 256, hN⟩ (0 : Fin 3) * 1 + 1; dsimp only at e0 e1 e2; omega
  | ⟨1, _⟩ => show win0_5.index ⟨2 * (i 0).val + (i 1).val / 256, hN⟩ (1 : Fin 3) * 256 ≤ (i 1).val ∧ (i 1).val < win0_5.index ⟨2 * (i 0).val + (i 1).val / 256, hN⟩ (1 : Fin 3) * 256 + 256; dsimp only at e0 e1 e2; omega
  | ⟨2, _⟩ => show win0_5.index ⟨2 * (i 0).val + (i 1).val / 256, hN⟩ (2 : Fin 3) * 2048 ≤ (i 2).val ∧ (i 2).val < win0_5.index ⟨2 * (i 0).val + (i 1).val / 256, hN⟩ (2 : Fin 3) * 2048 + 2048; dsimp only at e0 e1 e2; omega

/-- THE ARRAY after the run: the whole-array function of the arrays the region finds. -/
theorem final5 (c : Dev nD) : (dats m 0 c).arrAt 5 cfg0.N = attnArr (V m c main_arg0) (V m c main_arg1) (V m c main_v0) :=
  (dats m 0 c).arrAt_eq_of_cover 5 (attnArr (V m c main_arg0) (V m c main_arg1) (V m c main_v0)) (fun t _ => flushed5_eq m c t) cover5

/-- WHAT POINT `t` WRITES BACK to result window 4: its block of the whole-array function of the arrays the region finds. -/
theorem flushed4_eq (c : Dev nD) (t : Fin cfg0.N) :
    (dats m 0 c).flushed 4 t = ((cfg0.win 4).blk t).view.read (Elt Ideal) (outArr (V m c main_arg0) (V m c main_arg1) (V m c main_v0) (V m c main_v1)) := by
  obtain ⟨-, -, -, -, ⟨e0, e1, e2⟩, -⟩ := idx_facts t
  funext y
  have hy0 : (y 0).val = 0 := by have h : (y 0).val < 1 := (y 0).isLt; omega
  let r : Fin 256 := ⟨(y 1).val, (y 1).isLt⟩
  let s : Fin 512 := ⟨(y 2).val, (y 2).isLt⟩
  have hx : (cfg0.win 4).xinj (grid0.coords t) y = (ix3 0 r s : S1x256x512.Idx) :=
    funext fun a => Fin.ext (by match a with | ⟨0, _⟩ => exact hy0 | ⟨1, _⟩ => rfl | ⟨2, _⟩ => rfl)
  have hemb : ((cfg0.win 4).blk t).view.emb y = (ix3 (bOf t) (rowOf t r) s : S32x512x512.Idx) :=
    funext fun a => Fin.ext (by
      match a with
      | ⟨0, _⟩ => show win0_4.index t (0 : Fin 3) * 1 + 1 * (y 0).val = t.val / 2; omega
      | ⟨1, _⟩ => show win0_4.index t (1 : Fin 3) * 256 + 1 * (y 1).val = 256 * (t.val % 2) + (y 1).val; omega
      | ⟨2, _⟩ => show win0_4.index t (2 : Fin 3) * 512 + 1 * (y 2).val = (y 2).val; omega)
  show (dats m 0 c).flushed 4 t y = outArr (V m c main_arg0) (V m c main_arg1) (V m c main_v0) (V m c main_v1) (((cfg0.win 4).blk t).view.emb y)
  rw [hemb]
  show _ = outAt (V m c main_arg0) (V m c main_arg1) (V m c main_v0) (V m c main_v1) (bOf t) (rowOf t r) s
  by_cases h0 : t.val % 2 = 0
  · rw [flushed4_A m c t h0]
    refine (congrArg (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)) hx).trans ?_
    refine (congrFun (out_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)) (ix3 0 r s)).trans ?_
    exact out_point (V m c main_arg0) (V m c main_arg1) (V m c main_v0) (V m c main_v1) (iblk m c 0 t) (iblk m c 2 t) (k0_pay2 (iblk m c 1 t)) (loCols (iblk m c 3 t)) (hiCols (iblk m c 3 t)) (bOf t) (rowOf t r) r s (fun d => iblk0_at m c t r d) (fun e d => iblk2_at m c t e d) (fun s e => (pay2_at (iblk m c 1 t) s e).trans (iblk1_at m c t s e)) (fun o e => (loCols_at (iblk m c 3 t) o e).trans (iblk3_at m c t o _)) (fun o d => (hiCols_at (iblk m c 3 t) o d).trans (iblk3_at m c t o _))
  · have hb : bOf ⟨t.val - 1, Nat.lt_of_le_of_lt (Nat.sub_le _ _) t.isLt⟩ = bOf t :=
      Fin.ext (by show (t.val - 1) / 2 = t.val / 2; omega)
    rw [flushed4_B m c t h0]
    refine (congrArg (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2) hx).trans ?_
    refine (congrFun (out_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2) (ix3 0 r s)).trans ?_
    exact out_point (V m c main_arg0) (V m c main_arg1) (V m c main_v0) (V m c main_v1) (iblk m c 0 t) (iblk m c 2 t) ((outsAt0 m c (t.val - 1) (Nat.lt_of_le_of_lt (Nat.sub_le _ _) t.isLt)).2.2) (loCols (iblk m c 3 t)) (hiCols (iblk m c 3 t)) (bOf t) (rowOf t r) r s (fun d => iblk0_at m c t r d) (fun e d => iblk2_at m c t e d) (fun s e => (carried_at m c (t.val - 1) (Nat.lt_of_le_of_lt (Nat.sub_le _ _) t.isLt) s e).trans (by rw [hb])) (fun o e => (loCols_at (iblk m c 3 t) o e).trans (iblk3_at m c t o _)) (fun o d => (hiCols_at (iblk m c 3 t) o d).trans (iblk3_at m c t o _))

/-- An index of the array is in point `t`'s block iff each coordinate is in the block's range on its axis. -/
theorem mem_blk4 (t : Fin cfg0.N) (i : S32x512x512.Idx) :
    i ∈ ((cfg0.win 4).blk t).view.set ↔ ∀ a : Fin 3, win0_4.index t a * S1x256x512.size a ≤ (i a).val ∧ (i a).val < win0_4.index t a * S1x256x512.size a + S1x256x512.size a := by
  show i ∈ ((View.whole main_v2_0).slice (win0_4.rect t)).set ↔ _
  rw [View.set_slice_whole, Rect.mem_set_unit]
  exact Iff.rfl

/-- Every entry `(b, q, k)` of the result lies in the block of point `2 b + q / 256`. -/
theorem cover4 (i : S32x512x512.Idx) :
    ∃ t : Fin cfg0.N, (cfg0.win 4).flush t = true ∧ i ∈ ((cfg0.win 4).blk t).view.set := by
  have h0 : (i 0).val < 32 := (i 0).isLt
  have h1 : (i 1).val < 512 := (i 1).isLt
  have h2 : (i 2).val < 512 := (i 2).isLt
  have hN : 2 * (i 0).val + (i 1).val / 256 < cfg0.N := by rw [N64]; omega
  obtain ⟨-, -, -, -, ⟨e0, e1, e2⟩, -⟩ := idx_facts ⟨2 * (i 0).val + (i 1).val / 256, hN⟩
  refine ⟨⟨2 * (i 0).val + (i 1).val / 256, hN⟩, flush0_4 _, ?_⟩
  rw [mem_blk4]
  intro a
  match a with
  | ⟨0, _⟩ => show win0_4.index ⟨2 * (i 0).val + (i 1).val / 256, hN⟩ (0 : Fin 3) * 1 ≤ (i 0).val ∧ (i 0).val < win0_4.index ⟨2 * (i 0).val + (i 1).val / 256, hN⟩ (0 : Fin 3) * 1 + 1; dsimp only at e0 e1 e2; omega
  | ⟨1, _⟩ => show win0_4.index ⟨2 * (i 0).val + (i 1).val / 256, hN⟩ (1 : Fin 3) * 256 ≤ (i 1).val ∧ (i 1).val < win0_4.index ⟨2 * (i 0).val + (i 1).val / 256, hN⟩ (1 : Fin 3) * 256 + 256; dsimp only at e0 e1 e2; omega
  | ⟨2, _⟩ => show win0_4.index ⟨2 * (i 0).val + (i 1).val / 256, hN⟩ (2 : Fin 3) * 512 ≤ (i 2).val ∧ (i 2).val < win0_4.index ⟨2 * (i 0).val + (i 1).val / 256, hN⟩ (2 : Fin 3) * 512 + 512; dsimp only at e0 e1 e2; omega

/-- THE ARRAY after the run: the whole-array function of the arrays the region finds. -/
theorem final4 (c : Dev nD) : (dats m 0 c).arrAt 4 cfg0.N = outArr (V m c main_arg0) (V m c main_arg1) (V m c main_v0) (V m c main_v1) :=
  (dats m 0 c).arrAt_eq_of_cover 4 (outArr (V m c main_arg0) (V m c main_arg1) (V m c main_v0) (V m c main_v1)) (fun t _ => flushed4_eq m c t) cover4

/-- On the extended reals the cast array the input projection's window stages is the argument itself. -/
theorem V_v0_ideal (c : Dev nD) : (V m c main_v0 : S512x512.Idx → EReal) = m ((c : Thread nD τ).loc main_arg2) :=
  (V_v0 m c).trans (funext fun _ => rfl)

/-- Likewise the output projection. -/
theorem V_v1_ideal (c : Dev nD) : (V m c main_v1 : S512x1024.Idx → EReal) = m ((c : Thread nD τ).loc main_arg3) :=
  (V_v1 m c).trans (funext fun _ => rfl)

/-- THE KERNEL'S RUN, READ: every weakly fair execution ends with the output array at the block's output function of
    the four arguments and the attention array at the attention weights, the arguments unchanged. -/
theorem run : θ_run defs (onTc (τ := τ) (main (F := Ideal))) ⟨m, fun _ => 0, ρ⟩ fun r => ∀ c : Dev nD,
      r.2.mem ((c : Thread nD τ).loc main_v2_0) = outArr (m ((c : Thread nD τ).loc main_arg0)) (m ((c : Thread nD τ).loc main_arg1)) (m ((c : Thread nD τ).loc main_arg2)) (m ((c : Thread nD τ).loc main_arg3))
      ∧ r.2.mem ((c : Thread nD τ).loc main_v2_1) = attnArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨by rw [(h c).1, final4 m c, V_main_arg0 m c, V_main_arg1 m c, V_v0_ideal m c, V_v1_ideal m c],
      by rw [(h c).2.1, final5 m c, V_main_arg0 m c, V_main_arg1 m c, V_v0_ideal m c],
      (h c).2.2⟩)
    (run_blocks m ρ)

end Cert.KernelIdeal.Blocks
end
-- ==== Proof.lean ====
/-
  An attention block: x = input · W_inᵀ, attn = softmax (x · source_hidsᵀ) over source positions,
  mix = attn · source_hids, output = tanh ([mix, input] · W_outᵀ); results (output, attn).

  The kernel walks a 32 × 2 grid (batch element, query tile of 256 rows). At the first tile of a batch element it
  casts the 2048 × 512 source states once into a buffer it keeps for the second tile; every tile then computes its 256
  query rows against that buffer. Read on the extended reals, where a change of float format is the identity and every
  matrix product is the plain finite sum, each stored row is a function of its own input row, the two weight matrices
  and the batch element's source states — the same function the reference computes for that row, whose only other
  differences are a maximum with −∞ in front of the row maximum (the identity) and one product against the concatenated
  [mix, input] where the kernel adds two products against the two halves of W_out (a finite sum split in two). No
  finiteness of the inputs enters: every step is a regrouping of finite sums or the same operation on both sides.

  The modules: Spec (the row functions and the two result arrays as functions of the four arguments), RefRows (the
  reference's run is those functions), BodySoft and BodyOut (the kernel body's two stored values at an index),
  Pieces (what each of the body's two control cases leaves in its blocks and in the carried buffer), BlockReads
  (where a point's blocks sit in the arrays), Carried (the kept buffer holds the batch element's source states after
  every point), PointRows and Blocks (a point's stored blocks are the result functions read through the block; the
  64 blocks tile each result; the kernel's run ends at those functions). Here the five claims are assembled.
-/
import proofs.«157428_j30631706755292_2_alg».proof.Defs
import proofs.«157428_j30631706755292_2_alg».proof.Proof.Gen.Kernel
import proofs.«157428_j30631706755292_2_alg».proof.Proof.Gen.Kernel.Frame
import proofs.«157428_j30631706755292_2_alg».proof.Proof.Gen.KernelIdeal
import proofs.«157428_j30631706755292_2_alg».proof.Proof.Gen.KernelIdeal.Frame
import proofs.«157428_j30631706755292_2_alg».proof.Proof.Gen.KernelIdeal.Value
import proofs.«157428_j30631706755292_2_alg».proof.Proof.Gen.ReferenceIdeal
import proofs.«157428_j30631706755292_2_alg».proof.Proof.Gen.ReferenceIdeal.Run
import proofs.«157428_j30631706755292_2_alg».proof.Proof.Gen.ReferenceIdeal.Read
import proofs.«157428_j30631706755292_2_alg».proof.Proof.Gen.Pre_finite_inputs
import proofs.«157428_j30631706755292_2_alg».proof.Proof.Spec
import proofs.«157428_j30631706755292_2_alg».proof.Proof.RefRows
import proofs.«157428_j30631706755292_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the output array at the block's output function of the four arguments and the attention
    array at the attention weights: the kernel by its blocks, the reference stage by stage. -/
theorem algebraic : Cert.algebraic_KernelIdeal_ReferenceIdeal := by
  intro m ρ m' ρ' _ hagree
  refine ⟨fun c => Cert.Attn.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Attn.attnArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Blocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v16_eq, Cert.Attn.Ref.ref_out_arr,
      (hagree c).1, (hagree c).2.1, (hagree c).2.2.1, (hagree c).2.2.2]
  · rw [(h c).2.1, Cert.ReferenceIdeal.Read.val_main_v12_eq, Cert.Attn.Ref.ref_attn_arr,
      (hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
